-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x4x16384x64 : Shape := ⟨4, ![3, 4, 16384, 64]⟩
abbrev S4x3x128x128 : Shape := ⟨4, ![4, 3, 128, 128]⟩
abbrev S4x16384x128 : Shape := ⟨3, ![4, 16384, 128]⟩
abbrev S32x128 : Shape := ⟨2, ![32, 128]⟩
abbrev S32 : Shape := ⟨1, ![32]⟩
abbrev S_ : Shape := ⟨0, ![]⟩

class Facts : Prop where
  bcast_S_S4x3x128x128 : S_.BroadcastsInDim S4x3x128x128 (![] : Fin 0 → Fin S4x3x128x128.rank)
  reducesTo_S4x3x128x128_S_d0_1_2_3 : S4x3x128x128.ReducesTo [0, 1, 2, 3] S_
  h_S_ : 0 < S_.numel
  bcast_S_S4x16384x128 : S_.BroadcastsInDim S4x16384x128 (![] : Fin 0 → Fin S4x16384x128.rank)
  reducesTo_S4x16384x128_S_d0_1_2 : S4x16384x128.ReducesTo [0, 1, 2] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x128 .f32) (main_arg6 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : IVec S3x4x16384x64 32) (main_arg1 : FVec F S4x3x128x128 .f32) (main_arg2 : FVec F S4x16384x128 .f32) (main_arg3 : FVec F S32x128 .f32) (main_arg4 : FVec F S32 .f32) (main_arg5 : FVec F S32x128 .f32) (main_arg6 : FVec F S32 .f32) : IVec S_ 1 :=
  let main_v0 : FVec F S4x3x128x128 .f32 := Host.absf main_arg1
  let main_cst : FVec F S_ .f32 := constant S_ .f32 0x7F800000#32
  let main_v1 : FVec F S4x3x128x128 .f32 := broadcastInDim S4x3x128x128 ![] bcast_S_S4x3x128x128 main_cst
  let main_v2 : IVec S4x3x128x128 1 := cmpf .olt main_v0 main_v1
  let main_c : IVec S_ 1 := constantI S_ 1 1#1
  let main_v3 : IVec S_ 1 := (fun x v => Host.reduce IntOp.andi x v reducesTo_S4x3x128x128_S_d0_1_2_3 h_S_) main_v2 main_c
  let main_v4 : FVec F S4x16384x128 .f32 := Host.absf main_arg2
  let main_cst_0 : FVec F S_ .f32 := constant S_ .f32 0x7F800000#32
  let main_v5 : FVec F S4x16384x128 .f32 := broadcastInDim S4x16384x128 ![] bcast_S_S4x16384x128 main_cst_0
  let main_v6 : IVec S4x16384x128 1 := cmpf .olt main_v4 main_v5
  let main_c_1 : IVec S_ 1 := constantI S_ 1 1#1
  let main_v7 : IVec S_ 1 := (fun x v => Host.reduce IntOp.andi x v reducesTo_S4x16384x128_S_d0_1_2 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S3x4x16384x64 : Shape := ⟨4, ![3, 4, 16384, 64]⟩
abbrev S4x3x128x128 : Shape := ⟨4, ![4, 3, 128, 128]⟩
abbrev S4x16384x128 : Shape := ⟨3, ![4, 16384, 128]⟩
abbrev S32x128 : Shape := ⟨2, ![32, 128]⟩
abbrev S32 : Shape := ⟨1, ![32]⟩
abbrev S65536x128 : Shape := ⟨2, ![65536, 128]⟩
abbrev S128x32 : Shape := ⟨2, ![128, 32]⟩
abbrev S1x32 : Shape := ⟨2, ![1, 32]⟩
abbrev S65536x32 : Shape := ⟨2, ![65536, 32]⟩
abbrev S8192x128 : Shape := ⟨2, ![8192, 128]⟩
abbrev S8192x32 : Shape := ⟨2, ![8192, 32]⟩
abbrev S4x16384x32 : Shape := ⟨3, ![4, 16384, 32]⟩
abbrev S1x4x16384x64 : Shape := ⟨4, ![1, 4, 16384, 64]⟩
abbrev S4x16384x64 : Shape := ⟨3, ![4, 16384, 64]⟩
abbrev S4x1048576 : Shape := ⟨2, ![4, 1048576]⟩
abbrev S4x1048576x1 : Shape := ⟨3, ![4, 1048576, 1]⟩
abbrev S_ : Shape := ⟨0, ![]⟩
abbrev S1 : Shape := ⟨1, ![1]⟩
abbrev S1x1x1 : Shape := ⟨3, ![1, 1, 1]⟩
abbrev S4x1048576x32 : Shape := ⟨3, ![4, 1048576, 32]⟩
abbrev S4x2048x32 : Shape := ⟨3, ![4, 2048, 32]⟩
abbrev S4x2048 : Shape := ⟨2, ![4, 2048]⟩

abbrev nBuf : Space → Nat
  | .hbm => 70
  | .vmem => 16
  | .smem => 0
  | _ => 0

abbrev bufTy : (tb : Table) → Fin (tcTables nBuf tb) → BufTy
  | .hbm, ⟨0, _⟩ => ⟨S3x4x16384x64, .i32⟩
  | .hbm, ⟨1, _⟩ => ⟨S4x3x128x128, .f32⟩
  | .hbm, ⟨2, _⟩ => ⟨S4x16384x128, .f32⟩
  | .hbm, ⟨3, _⟩ => ⟨S32x128, .f32⟩
  | .hbm, ⟨4, _⟩ => ⟨S32, .f32⟩
  | .hbm, ⟨5, _⟩ => ⟨S32x128, .f32⟩
  | .hbm, ⟨6, _⟩ => ⟨S32, .f32⟩
  | .hbm, ⟨7, _⟩ => ⟨S65536x128, .f32⟩
  | .hbm, ⟨8, _⟩ => ⟨S128x32, .f32⟩
  | .hbm, ⟨9, _⟩ => ⟨S128x32, .f32⟩
  | .hbm, ⟨10, _⟩ => ⟨S1x32, .f32⟩
  | .hbm, ⟨11, _⟩ => ⟨S1x32, .f32⟩
  | .hbm, ⟨12, _⟩ => ⟨S65536x32, .f32⟩
  | .hbm, ⟨13, _⟩ => ⟨S65536x32, .f32⟩
  | .hbm, ⟨14, _⟩ => ⟨S4x16384x32, .f32⟩
  | .hbm, ⟨15, _⟩ => ⟨S4x16384x32, .f32⟩
  | .hbm, ⟨16, _⟩ => ⟨S1x4x16384x64, .i32⟩
  | .hbm, ⟨17, _⟩ => ⟨S4x16384x64, .i32⟩
  | .hbm, ⟨18, _⟩ => ⟨S4x1048576, .i32⟩
  | .hbm, ⟨19, _⟩ => ⟨S1x4x16384x64, .i32⟩
  | .hbm, ⟨20, _⟩ => ⟨S4x16384x64, .i32⟩
  | .hbm, ⟨21, _⟩ => ⟨S4x1048576, .i32⟩
  | .hbm, ⟨22, _⟩ => ⟨S4x1048576x1, .i32⟩
  | .hbm, ⟨23, _⟩ => ⟨S_, .i32⟩
  | .hbm, ⟨24, _⟩ => ⟨S4x1048576x1, .i32⟩
  | .hbm, ⟨25, _⟩ => ⟨S4x1048576x1, .i1⟩
  | .hbm, ⟨26, _⟩ => ⟨S_, .i32⟩
  | .hbm, ⟨27, _⟩ => ⟨S4x1048576x1, .i32⟩
  | .hbm, ⟨28, _⟩ => ⟨S4x1048576x1, .i32⟩
  | .hbm, ⟨29, _⟩ => ⟨S4x1048576x1, .i32⟩
  | .hbm, ⟨30, _⟩ => ⟨S1, .i32⟩
  | .hbm, ⟨31, _⟩ => ⟨S_, .i32⟩
  | .hbm, ⟨32, _⟩ => ⟨S4x1048576x1, .i32⟩
  | .hbm, ⟨33, _⟩ => ⟨S4x1048576x1, .i1⟩
  | .hbm, ⟨34, _⟩ => ⟨S1x1x1, .i32⟩
  | .hbm, ⟨35, _⟩ => ⟨S4x1048576x1, .i32⟩
  | .hbm, ⟨36, _⟩ => ⟨S4x1048576x1, .i1⟩
  | .hbm, ⟨37, _⟩ => ⟨S4x1048576x1, .i1⟩
  | .hbm, ⟨38, _⟩ => ⟨S_, .i1⟩
  | .hbm, ⟨39, _⟩ => ⟨S4x1048576, .i1⟩
  | .hbm, ⟨40, _⟩ => ⟨S4x1048576x32, .f32⟩
  | .hbm, ⟨41, _⟩ => ⟨S4x1048576x32, .i1⟩
  | .hbm, ⟨42, _⟩ => ⟨S_, .f32⟩
  | .hbm, ⟨43, _⟩ => ⟨S4x1048576x32, .f32⟩
  | .hbm, ⟨44, _⟩ => ⟨S4x1048576x32, .f32⟩
  | .hbm, ⟨45, _⟩ => ⟨S4x1048576x1, .i32⟩
  | .hbm, ⟨46, _⟩ => ⟨S_, .i32⟩
  | .hbm, ⟨47, _⟩ => ⟨S4x1048576x1, .i32⟩
  | .hbm, ⟨48, _⟩ => ⟨S4x1048576x1, .i1⟩
  | .hbm, ⟨49, _⟩ => ⟨S_, .i32⟩
  | .hbm, ⟨50, _⟩ => ⟨S4x1048576x1, .i32⟩
  | .hbm, ⟨51, _⟩ => ⟨S4x1048576x1, .i32⟩
  | .hbm, ⟨52, _⟩ => ⟨S4x1048576x1, .i32⟩
  | .hbm, ⟨53, _⟩ => ⟨S1, .i32⟩
  | .hbm, ⟨54, _⟩ => ⟨S_, .i32⟩
  | .hbm, ⟨55, _⟩ => ⟨S4x1048576x1, .i32⟩
  | .hbm, ⟨56, _⟩ => ⟨S4x1048576x1, .i1⟩
  | .hbm, ⟨57, _⟩ => ⟨S1x1x1, .i32⟩
  | .hbm, ⟨58, _⟩ => ⟨S4x1048576x1, .i32⟩
  | .hbm, ⟨59, _⟩ => ⟨S4x1048576x1, .i1⟩
  | .hbm, ⟨60, _⟩ => ⟨S4x1048576x1, .i1⟩
  | .hbm, ⟨61, _⟩ => ⟨S_, .i1⟩
  | .hbm, ⟨62, _⟩ => ⟨S4x1048576, .i1⟩
  | .hbm, ⟨63, _⟩ => ⟨S4x1048576x32, .f32⟩
  | .hbm, ⟨64, _⟩ => ⟨S4x1048576x32, .i1⟩
  | .hbm, ⟨65, _⟩ => ⟨S_, .f32⟩
  | .hbm, ⟨66, _⟩ => ⟨S4x1048576x32, .f32⟩
  | .hbm, ⟨67, _⟩ => ⟨S4x1048576x32, .f32⟩
  | .hbm, ⟨68, _⟩ => ⟨S4x1048576, .f32⟩
  | .hbm, ⟨69, _⟩ => ⟨S4x16384x64, .f32⟩
  | .local _ .vmem, ⟨0, _⟩ => ⟨S8192x128, .f32⟩
  | .local _ .vmem, ⟨1, _⟩ => ⟨S8192x128, .f32⟩
  | .local _ .vmem, ⟨2, _⟩ => ⟨S128x32, .f32⟩
  | .local _ .vmem, ⟨3, _⟩ => ⟨S1x32, .f32⟩
  | .local _ .vmem, ⟨4, _⟩ => ⟨S128x32, .f32⟩
  | .local _ .vmem, ⟨5, _⟩ => ⟨S1x32, .f32⟩
  | .local _ .vmem, ⟨6, _⟩ => ⟨S8192x32, .f32⟩
  | .local _ .vmem, ⟨7, _⟩ => ⟨S8192x32, .f32⟩
  | .local _ .vmem, ⟨8, _⟩ => ⟨S8192x32, .f32⟩
  | .local _ .vmem, ⟨9, _⟩ => ⟨S8192x32, .f32⟩
  | .local _ .vmem, ⟨10, _⟩ => ⟨S4x2048x32, .f32⟩
  | .local _ .vmem, ⟨11, _⟩ => ⟨S4x2048x32, .f32⟩
  | .local _ .vmem, ⟨12, _⟩ => ⟨S4x2048x32, .f32⟩
  | .local _ .vmem, ⟨13, _⟩ => ⟨S4x2048x32, .f32⟩
  | .local _ .vmem, ⟨14, _⟩ => ⟨S4x2048, .f32⟩
  | .local _ .vmem, ⟨15, _⟩ => ⟨S4x2048, .f32⟩
  | _, _ => ⟨S3x4x16384x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_c_2 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_3 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v15 : Ref sig .tc := ⟨.hbm, 44, rfl⟩
abbrev main_v16 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_c_2 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_c_3 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![512], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x16384x128_S65536x128 : S4x16384x128.ShapeCasts S65536x128
  transposes_S32x128_S128x32_1_0 : S32x128.Transposes [1, 0] S128x32
  shapeCasts_S32_S1x32 : S32.ShapeCasts S1x32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  shapeCasts_S65536x32_S4x16384x32 : S65536x32.ShapeCasts S4x16384x32
  slices_S3x4x16384x64_S1x4x16384x64_1_0_0_0 : S3x4x16384x64.Slices ![1, 0, 0, 0] S1x4x16384x64
  shapeCasts_S1x4x16384x64_S4x16384x64 : S1x4x16384x64.ShapeCasts S4x16384x64
  shapeCasts_S4x16384x64_S4x1048576 : S4x16384x64.ShapeCasts S4x1048576
  slices_S3x4x16384x64_S1x4x16384x64_2_0_0_0 : S3x4x16384x64.Slices ![2, 0, 0, 0] S1x4x16384x64
  bcast_S4x1048576_S4x1048576x1_0_1 : S4x1048576.BroadcastsInDim S4x1048576x1 (![0, 1] : Fin 2 → Fin S4x1048576x1.rank)
  bcast_S_S4x1048576x1 : S_.BroadcastsInDim S4x1048576x1 (![] : Fin 0 → Fin S4x1048576x1.rank)
  bcast_S1_S1x1x1_2 : S1.BroadcastsInDim S1x1x1 (![2] : Fin 1 → Fin S1x1x1.rank)
  bcast_S1x1x1_S4x1048576x1_0_1_2 : S1x1x1.BroadcastsInDim S4x1048576x1 (![0, 1, 2] : Fin 3 → Fin S4x1048576x1.rank)
  reducesTo_S4x1048576x1_S4x1048576_d2 : S4x1048576x1.ReducesTo [2] S4x1048576
  h_S_ : 0 < S_.numel
  bcast_S4x1048576_S4x1048576x32_0_1 : S4x1048576.BroadcastsInDim S4x1048576x32 (![0, 1] : Fin 2 → Fin S4x1048576x32.rank)
  bcast_S_S4x1048576x32 : S_.BroadcastsInDim S4x1048576x32 (![] : Fin 0 → Fin S4x1048576x32.rank)
  inb_S4x2048x32_S4x2048x32_0_0_0 : ∀ a, (![0, 0, 0] : Fin 3 → Nat) a + S4x2048x32.size a ≤ S4x2048x32.size a
  h_S4x2048x32 : 0 < S4x2048x32.numel
  shapeCasts_S4x2048x32_S4x2048x32 : S4x2048x32.ShapeCasts S4x2048x32
  reduces_S4x2048x32_S4x2048 : S4x2048x32.Reduces [2] S4x2048
  inb_S4x2048_S4x2048_0_0 : ∀ a, (![0, 0] : Fin 2 → Nat) a + S4x2048.size a ≤ S4x2048.size a
  h_S4x2048 : 0 < S4x2048.numel
  shapeCasts_S4x1048576_S4x16384x64 : S4x1048576.ShapeCasts S4x16384x64
  dot_S8192x128_S128x32_S8192x32_1_0_0_1_n_n_wf : DotDims.WF S8192x128 S128x32 S8192x32 [1] [0] [0] [1] [] []
  gather_S4x16384x32_S4x1048576x1_S4x1048576x32_2_1_0_0_1_2_1132_wf : GatherDims.WF S4x16384x32 S4x1048576x1 S4x1048576x32 [2] [1] [0] [1] [0] 2 ![1, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x32.size a ≤ S65536x32.size a
  hwx0_5 : ∀ i : grid0.Coords, EltTy.bits .f32 = 32 ∨ (Rect.block (s := S65536x32) S8192x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x32.size a ≤ S65536x32.size a
  hwx0_6 : ∀ i : grid0.Coords, EltTy.bits .f32 = 32 ∨ (Rect.block (s := S65536x32) S8192x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2048x32.size a ≤ S4x1048576x32.size a
  hwx1_0 : ∀ i : grid1.Coords, EltTy.bits .f32 = 32 ∨ (Rect.block (s := S4x1048576x32) S4x2048x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x2048x32.size a ≤ S4x1048576x32.size a
  hwx1_1 : ∀ i : grid1.Coords, EltTy.bits .f32 = 32 ∨ (Rect.block (s := S4x1048576x32) S4x2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x2048.size a ≤ S4x1048576.size a
  hwx1_2 : ∀ i : grid1.Coords, EltTy.bits .f32 = 32 ∨ (Rect.block (s := S4x1048576) S4x2048.size (cc1_transform_2 i) (hinb1_2 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def gather_S4x16384x32_S4x1048576x1_S4x1048576x32_2_1_0_0_1_2_1132 : GatherDims S4x16384x32 S4x1048576x1 S4x1048576x32 where
  offsetDims := [2]
  collapsedSliceDims := [1]
  operandBatchingDims := [0]
  startIndicesBatchingDims := [0]
  startIndexMap := [1]
  indexVectorDim := 2
  sliceSizes := ![1, 1, 32]
  wf := gather_S4x16384x32_S4x1048576x1_S4x1048576x32_2_1_0_0_1_2_1132_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S8192x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S8192x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15) S4x2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4x2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S4x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S3x4x16384x64 : Shape := ⟨4, ![3, 4, 16384, 64]⟩
abbrev S4x3x128x128 : Shape := ⟨4, ![4, 3, 128, 128]⟩
abbrev S4x16384x128 : Shape := ⟨3, ![4, 16384, 128]⟩
abbrev S32x128 : Shape := ⟨2, ![32, 128]⟩
abbrev S32 : Shape := ⟨1, ![32]⟩
abbrev S4x16384x32 : Shape := ⟨3, ![4, 16384, 32]⟩
abbrev S1x1x32 : Shape := ⟨3, ![1, 1, 32]⟩
abbrev S1x4x16384x64 : Shape := ⟨4, ![1, 4, 16384, 64]⟩
abbrev S4x16384x64 : Shape := ⟨3, ![4, 16384, 64]⟩
abbrev S4x1048576 : Shape := ⟨2, ![4, 1048576]⟩
abbrev S4x1048576x1 : Shape := ⟨3, ![4, 1048576, 1]⟩
abbrev S_ : Shape := ⟨0, ![]⟩
abbrev S1 : Shape := ⟨1, ![1]⟩
abbrev S1x1x1 : Shape := ⟨3, ![1, 1, 1]⟩
abbrev S4x1048576x32 : Shape := ⟨3, ![4, 1048576, 32]⟩

abbrev nBuf : Space → Nat
  | .hbm => 74
  | .vmem => 0
  | .smem => 0
  | _ => 0

abbrev bufTy : (tb : Table) → Fin (tcTables nBuf tb) → BufTy
  | .hbm, ⟨0, _⟩ => ⟨S3x4x16384x64, .i32⟩
  | .hbm, ⟨1, _⟩ => ⟨S4x3x128x128, .f32⟩
  | .hbm, ⟨2, _⟩ => ⟨S4x16384x128, .f32⟩
  | .hbm, ⟨3, _⟩ => ⟨S32x128, .f32⟩
  | .hbm, ⟨4, _⟩ => ⟨S32, .f32⟩
  | .hbm, ⟨5, _⟩ => ⟨S32x128, .f32⟩
  | .hbm, ⟨6, _⟩ => ⟨S32, .f32⟩
  | .hbm, ⟨7, _⟩ => ⟨S4x16384x32, .f32⟩
  | .hbm, ⟨8, _⟩ => ⟨S1x1x32, .f32⟩
  | .hbm, ⟨9, _⟩ => ⟨S4x16384x32, .f32⟩
  | .hbm, ⟨10, _⟩ => ⟨S4x16384x32, .f32⟩
  | .hbm, ⟨11, _⟩ => ⟨S4x16384x32, .f32⟩
  | .hbm, ⟨12, _⟩ => ⟨S1x1x32, .f32⟩
  | .hbm, ⟨13, _⟩ => ⟨S4x16384x32, .f32⟩
  | .hbm, ⟨14, _⟩ => ⟨S4x16384x32, .f32⟩
  | .hbm, ⟨15, _⟩ => ⟨S1x4x16384x64, .i32⟩
  | .hbm, ⟨16, _⟩ => ⟨S4x16384x64, .i32⟩
  | .hbm, ⟨17, _⟩ => ⟨S4x1048576, .i32⟩
  | .hbm, ⟨18, _⟩ => ⟨S1x4x16384x64, .i32⟩
  | .hbm, ⟨19, _⟩ => ⟨S4x16384x64, .i32⟩
  | .hbm, ⟨20, _⟩ => ⟨S4x1048576, .i32⟩
  | .hbm, ⟨21, _⟩ => ⟨S4x1048576x1, .i32⟩
  | .hbm, ⟨22, _⟩ => ⟨S_, .i32⟩
  | .hbm, ⟨23, _⟩ => ⟨S4x1048576x1, .i32⟩
  | .hbm, ⟨24, _⟩ => ⟨S4x1048576x1, .i1⟩
  | .hbm, ⟨25, _⟩ => ⟨S_, .i32⟩
  | .hbm, ⟨26, _⟩ => ⟨S4x1048576x1, .i32⟩
  | .hbm, ⟨27, _⟩ => ⟨S4x1048576x1, .i32⟩
  | .hbm, ⟨28, _⟩ => ⟨S4x1048576x1, .i32⟩
  | .hbm, ⟨29, _⟩ => ⟨S1, .i32⟩
  | .hbm, ⟨30, _⟩ => ⟨S_, .i32⟩
  | .hbm, ⟨31, _⟩ => ⟨S4x1048576x1, .i32⟩
  | .hbm, ⟨32, _⟩ => ⟨S4x1048576x1, .i1⟩
  | .hbm, ⟨33, _⟩ => ⟨S1x1x1, .i32⟩
  | .hbm, ⟨34, _⟩ => ⟨S4x1048576x1, .i32⟩
  | .hbm, ⟨35, _⟩ => ⟨S4x1048576x1, .i1⟩
  | .hbm, ⟨36, _⟩ => ⟨S4x1048576x1, .i1⟩
  | .hbm, ⟨37, _⟩ => ⟨S_, .i1⟩
  | .hbm, ⟨38, _⟩ => ⟨S4x1048576, .i1⟩
  | .hbm, ⟨39, _⟩ => ⟨S4x1048576x32, .f32⟩
  | .hbm, ⟨40, _⟩ => ⟨S4x1048576x32, .i1⟩
  | .hbm, ⟨41, _⟩ => ⟨S_, .f32⟩
  | .hbm, ⟨42, _⟩ => ⟨S4x1048576x32, .f32⟩
  | .hbm, ⟨43, _⟩ => ⟨S4x1048576x32, .f32⟩
  | .hbm, ⟨44, _⟩ => ⟨S4x1048576x1, .i32⟩
  | .hbm, ⟨45, _⟩ => ⟨S_, .i32⟩
  | .hbm, ⟨46, _⟩ => ⟨S4x1048576x1, .i32⟩
  | .hbm, ⟨47, _⟩ => ⟨S4x1048576x1, .i1⟩
  | .hbm, ⟨48, _⟩ => ⟨S_, .i32⟩
  | .hbm, ⟨49, _⟩ => ⟨S4x1048576x1, .i32⟩
  | .hbm, ⟨50, _⟩ => ⟨S4x1048576x1, .i32⟩
  | .hbm, ⟨51, _⟩ => ⟨S4x1048576x1, .i32⟩
  | .hbm, ⟨52, _⟩ => ⟨S1, .i32⟩
  | .hbm, ⟨53, _⟩ => ⟨S_, .i32⟩
  | .hbm, ⟨54, _⟩ => ⟨S4x1048576x1, .i32⟩
  | .hbm, ⟨55, _⟩ => ⟨S4x1048576x1, .i1⟩
  | .hbm, ⟨56, _⟩ => ⟨S1x1x1, .i32⟩
  | .hbm, ⟨57, _⟩ => ⟨S4x1048576x1, .i32⟩
  | .hbm, ⟨58, _⟩ => ⟨S4x1048576x1, .i1⟩
  | .hbm, ⟨59, _⟩ => ⟨S4x1048576x1, .i1⟩
  | .hbm, ⟨60, _⟩ => ⟨S_, .i1⟩
  | .hbm, ⟨61, _⟩ => ⟨S4x1048576, .i1⟩
  | .hbm, ⟨62, _⟩ => ⟨S4x1048576x32, .f32⟩
  | .hbm, ⟨63, _⟩ => ⟨S4x1048576x32, .i1⟩
  | .hbm, ⟨64, _⟩ => ⟨S_, .f32⟩
  | .hbm, ⟨65, _⟩ => ⟨S4x1048576x32, .f32⟩
  | .hbm, ⟨66, _⟩ => ⟨S4x1048576x32, .f32⟩
  | .hbm, ⟨67, _⟩ => ⟨S4x1048576x32, .f32⟩
  | .hbm, ⟨68, _⟩ => ⟨S_, .f32⟩
  | .hbm, ⟨69, _⟩ => ⟨S4x1048576, .f32⟩
  | .hbm, ⟨70, _⟩ => ⟨S4x16384x64, .f32⟩
  | .hbm, ⟨71, _⟩ => ⟨S_, .f32⟩
  | .hbm, ⟨72, _⟩ => ⟨S4x16384x64, .f32⟩
  | .hbm, ⟨73, _⟩ => ⟨S4x16384x64, .f32⟩
  | _, _ => ⟨S3x4x16384x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_c_2 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_c_2 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_c_3 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v17 : Ref sig .tc := ⟨.hbm, 66, rfl⟩
abbrev main_v18 : Ref sig .tc := ⟨.hbm, 67, rfl⟩
abbrev main_cst : Ref sig .tc := ⟨.hbm, 68, rfl⟩
abbrev main_v19 : Ref sig .tc := ⟨.hbm, 69, rfl⟩
abbrev main_v20 : Ref sig .tc := ⟨.hbm, 70, rfl⟩
abbrev main_cst_0 : Ref sig .tc := ⟨.hbm, 71, rfl⟩
abbrev main_v21 : Ref sig .tc := ⟨.hbm, 72, rfl⟩
abbrev main_v22 : Ref sig .tc := ⟨.hbm, 73, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S4x16384x32_0_1_2 : S1x1x32.BroadcastsInDim S4x16384x32 (![0, 1, 2] : Fin 3 → Fin S4x16384x32.rank)
  slices_S3x4x16384x64_S1x4x16384x64_1_0_0_0 : S3x4x16384x64.Slices ![1, 0, 0, 0] S1x4x16384x64
  shapeCasts_S1x4x16384x64_S4x16384x64 : S1x4x16384x64.ShapeCasts S4x16384x64
  shapeCasts_S4x16384x64_S4x1048576 : S4x16384x64.ShapeCasts S4x1048576
  slices_S3x4x16384x64_S1x4x16384x64_2_0_0_0 : S3x4x16384x64.Slices ![2, 0, 0, 0] S1x4x16384x64
  bcast_S4x1048576_S4x1048576x1_0_1 : S4x1048576.BroadcastsInDim S4x1048576x1 (![0, 1] : Fin 2 → Fin S4x1048576x1.rank)
  bcast_S_S4x1048576x1 : S_.BroadcastsInDim S4x1048576x1 (![] : Fin 0 → Fin S4x1048576x1.rank)
  bcast_S1_S1x1x1_2 : S1.BroadcastsInDim S1x1x1 (![2] : Fin 1 → Fin S1x1x1.rank)
  bcast_S1x1x1_S4x1048576x1_0_1_2 : S1x1x1.BroadcastsInDim S4x1048576x1 (![0, 1, 2] : Fin 3 → Fin S4x1048576x1.rank)
  reducesTo_S4x1048576x1_S4x1048576_d2 : S4x1048576x1.ReducesTo [2] S4x1048576
  h_S_ : 0 < S_.numel
  bcast_S4x1048576_S4x1048576x32_0_1 : S4x1048576.BroadcastsInDim S4x1048576x32 (![0, 1] : Fin 2 → Fin S4x1048576x32.rank)
  bcast_S_S4x1048576x32 : S_.BroadcastsInDim S4x1048576x32 (![] : Fin 0 → Fin S4x1048576x32.rank)
  reducesTo_S4x1048576x32_S4x1048576_d2 : S4x1048576x32.ReducesTo [2] S4x1048576
  shapeCasts_S4x1048576_S4x16384x64 : S4x1048576.ShapeCasts S4x16384x64
  bcast_S_S4x16384x64 : S_.BroadcastsInDim S4x16384x64 (![] : Fin 0 → Fin S4x16384x64.rank)
  dot_S4x16384x128_S32x128_S4x16384x32_2_1_01_0_n_n_wf : DotDims.WF S4x16384x128 S32x128 S4x16384x32 [2] [1] [0, 1] [0] [] []
  gather_S4x16384x32_S4x1048576x1_S4x1048576x32_2_1_0_0_1_2_1132_wf : GatherDims.WF S4x16384x32 S4x1048576x1 S4x1048576x32 [2] [1] [0] [1] [0] 2 ![1, 1, 32]

variable [Facts₀]

def dot_S4x16384x128_S32x128_S4x16384x32_2_1_01_0_n_n : DotDims S4x16384x128 S32x128 S4x16384x32 where
  lhsContracting := [2]
  rhsContracting := [1]
  lhsNonContracting := [0, 1]
  rhsNonContracting := [0]
  lhsBatch := []
  rhsBatch := []
  wf := dot_S4x16384x128_S32x128_S4x16384x32_2_1_01_0_n_n_wf
def gather_S4x16384x32_S4x1048576x1_S4x1048576x32_2_1_0_0_1_2_1132 : GatherDims S4x16384x32 S4x1048576x1 S4x1048576x32 where
  offsetDims := [2]
  collapsedSliceDims := [1]
  operandBatchingDims := [0]
  startIndicesBatchingDims := [0]
  startIndexMap := [1]
  indexVectorDim := 2
  sliceSizes := ![1, 1, 32]
  wf := gather_S4x16384x32_S4x1048576x1_S4x1048576x32_2_1_0_0_1_2_1132_wf

class Facts : Prop extends Facts₀ where

variable [Facts]
-- ==== Proof.KernelRun.lean ====
/-
  The idealized kernel's run with its RESULT named. @main is a chain of eight segments — the host lines before the
  projection kernel, that kernel, four stretches of host lines (two reshapes, the index slices, two row gathers), the
  affinity kernel, and one closing reshape — and the buffer contents at the end of each segment are a fold from the
  launch memory. Every buffer that no kernel scopes ends at the last boundary's contents; read at the result buffer
  this says that the program's result is the closing reshape of what the affinity kernel wrote back, and read at the
  argument buffers that they are as launched.
-/
import proofs.«169757_j55697135894755_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends, without a fault, with the result buffer at the last boundary's contents
    (the closing reshape over the affinity kernel's write-backs) and every argument as launched. -/
theorem run_result : θ_run defs (onTc (τ := τ) (main (F := F))) ⟨m, fun _ => 0, ρ⟩ (fun r => ∀ c : Dev nD,
      r.2.mem ((c.tc : Thread nD τ).loc main_v19) = W8 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v19 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Whole

end
-- ==== Proof.KGather.lean ====
/-
  The row gather between the two kernels, read as ONE function. Each of the two calls takes a table of 4 × 16384 rows
  of 32 numbers and, for every batch b and edge e, an index; an index below zero counts from the end (16384 is added),
  row e of the result is the table's row at that index when the index then lies in 0 … 16383, and a row of not-a-number
  fill otherwise. The stretch of host lines that does this is a fold over twenty-two operations; at the call's result
  buffer the fold is this function of what the table's buffer and the index buffer held before, whatever that was.
-/
import proofs.«169757_j55697135894755_2_alg».proof.Proof.Gen.KernelIdeal.Launch
import Idealize.ShloMosaic.Lib.StableHlo.Run

set_option maxRecDepth 16384

noncomputable section

namespace Cert.KernelIdeal.Mid

open Cert.KernelIdeal Cert.KernelIdeal.Gen
open Idealize.ShloMosaic Idealize.ShloMosaic.TcCoe Idealize.SL.Sem Idealize.ShloMosaic.StableHlo

variable {F : FTy → Type} [FloatOps F]

/-- A typed reference's two transports undo each other. -/
theorem ofBuf_toBuf {T : BufTy} (x : TRef sig T) (v : T.Contents (Elt F)) : x.ofBuf (x.toBuf v) = v := by
  obtain ⟨r, h, h2, h3⟩ := x
  subst h
  rfl

/-- An index below zero counts from the end of the 16384 rows. -/
def wrapIx (ix : (⟨S4x1048576x1, .i32⟩ : BufTy).Contents (Elt F)) : (⟨S4x1048576x1, .i32⟩ : BufTy).Contents (Elt F) :=
  select (cmpi .slt ix (broadcastInDim S4x1048576x1 ![] bcast_S_S4x1048576x1 (constantI S_ 32 0#32)))
    (addi ix (broadcastInDim S4x1048576x1 ![] bcast_S_S4x1048576x1 (constantI S_ 32 16384#32))) ix

/-- The rows of `tbl` at the wrapped indices, a fill row where the wrapped index is out of range. -/
def takeRows (tbl : (⟨S4x16384x32, .f32⟩ : BufTy).Contents (Elt F)) (ix : (⟨S4x1048576x1, .i32⟩ : BufTy).Contents (Elt F)) :
    (⟨S4x1048576x32, .f32⟩ : BufTy).Contents (Elt F) :=
  select
    (broadcastInDim S4x1048576x32 ![0, 1] bcast_S4x1048576_S4x1048576x32_0_1
      (Host.reduce IntOp.andi
        (andi (cmpi .sge (wrapIx ix) (broadcastInDim S4x1048576x1 ![] bcast_S_S4x1048576x1 (constantI S_ 32 0#32)))
          (cmpi .sle (wrapIx ix) (broadcastInDim S4x1048576x1 ![0, 1, 2] bcast_S1x1x1_S4x1048576x1_0_1_2
            (broadcastInDim S1x1x1 ![2] bcast_S1_S1x1x1_2 (constantI S1 32 16383#32)))))
        (constantI S_ 1 1#1) reducesTo_S4x1048576x1_S4x1048576_d2 h_S_))
    (Host.gather gather_S4x16384x32_S4x1048576x1_S4x1048576x32_2_1_0_0_1_2_1132 tbl (wrapIx ix))
    (broadcastInDim S4x1048576x32 ![] bcast_S_S4x1048576x32 (constant S_ .f32 0x7FC00000#32))

attribute [local irreducible] Host.reduce Host.gather in
/-- The first call's stretch at its result buffer. -/
theorem after_call0 (W : Valuation τ sig (Elt F)) :
    after hostOps1_1 W (Proc.devRef .tc main_v15)
      = takeRows (W (Proc.devRef .tc main_v6)) (W (Proc.devRef .tc main_v14)) := by
  after_results_simp
  simp only [ofBuf_toBuf]
  generalize W (Proc.devRef .tc main_v6) = tbl
  generalize W (Proc.devRef .tc main_v14) = ix
  rfl

attribute [local irreducible] Host.reduce Host.gather in
/-- The second call's stretch at its result buffer. -/
theorem after_call1 (W : Valuation τ sig (Elt F)) :
    after hostOps1_3 W (Proc.devRef .tc main_v17)
      = takeRows (W (Proc.devRef .tc main_v7)) (W (Proc.devRef .tc main_v16)) := by
  after_results_simp
  simp only [ofBuf_toBuf]
  generalize W (Proc.devRef .tc main_v7) = tbl
  generalize W (Proc.devRef .tc main_v16) = ix
  rfl

/-! What each call's stretch leaves alone: it writes only the call's own buffers and its result. -/

theorem after_call0_v7 (W : Valuation τ sig (Elt F)) :
    after hostOps1_1 W (Proc.devRef .tc main_v7) = W (Proc.devRef .tc main_v7) := by after_results_simp
theorem after_call0_v13 (W : Valuation τ sig (Elt F)) :
    after hostOps1_1 W (Proc.devRef .tc main_v13) = W (Proc.devRef .tc main_v13) := by after_results_simp
theorem after_call1_v15 (W : Valuation τ sig (Elt F)) :
    after hostOps1_3 W (Proc.devRef .tc main_v15) = W (Proc.devRef .tc main_v15) := by after_results_simp

/-! The index planes. Plane 1 of the [3, 4, 16384, 64] index array holds, for batch b, node n and neighbour slot s,
    the key row of edge e = 64·n + s; plane 2 the query row. Each is cut out, flattened to [4, 1048576] and given a
    trailing unit axis. -/

/-- Plane `p` = 2 flattened to [4, 1048576]. -/
def queryPlane (a0 : (⟨S3x4x16384x64, .i32⟩ : BufTy).Contents (Elt F)) : (⟨S4x1048576, .i32⟩ : BufTy).Contents (Elt F) :=
  shapeCast S4x1048576 (shapeCast S4x16384x64 (extractStridedSlice S1x4x16384x64 ![2, 0, 0, 0] a0 slices_S3x4x16384x64_S1x4x16384x64_2_0_0_0)
    shapeCasts_S1x4x16384x64_S4x16384x64) shapeCasts_S4x16384x64_S4x1048576

/-- The key indices as a [4, 1048576, 1] column. -/
def keyIx (a0 : (⟨S3x4x16384x64, .i32⟩ : BufTy).Contents (Elt F)) : (⟨S4x1048576x1, .i32⟩ : BufTy).Contents (Elt F) :=
  broadcastInDim S4x1048576x1 ![0, 1] bcast_S4x1048576_S4x1048576x1_0_1
    (shapeCast S4x1048576 (shapeCast S4x16384x64 (extractStridedSlice S1x4x16384x64 ![1, 0, 0, 0] a0 slices_S3x4x16384x64_S1x4x16384x64_1_0_0_0)
      shapeCasts_S1x4x16384x64_S4x16384x64) shapeCasts_S4x16384x64_S4x1048576)

/-- The query indices as a [4, 1048576, 1] column. -/
def queryIx (a0 : (⟨S3x4x16384x64, .i32⟩ : BufTy).Contents (Elt F)) : (⟨S4x1048576x1, .i32⟩ : BufTy).Contents (Elt F) :=
  broadcastInDim S4x1048576x1 ![0, 1] bcast_S4x1048576_S4x1048576x1_0_1 (queryPlane a0)

/-! The stretch after the projection kernel: its two results regrouped by batch, and the index planes. -/

theorem after_ops1_v6 (W : Valuation τ sig (Elt F)) :
    after hostOps1 W (Proc.devRef .tc main_v6)
      = shapeCast S4x16384x32 (W (Proc.devRef .tc main_v5_0) : (⟨S65536x32, .f32⟩ : BufTy).Contents (Elt F)) shapeCasts_S65536x32_S4x16384x32 := by
  after_results <;> rfl
theorem after_ops1_v7 (W : Valuation τ sig (Elt F)) :
    after hostOps1 W (Proc.devRef .tc main_v7)
      = shapeCast S4x16384x32 (W (Proc.devRef .tc main_v5_1) : (⟨S65536x32, .f32⟩ : BufTy).Contents (Elt F)) shapeCasts_S65536x32_S4x16384x32 := by
  after_results <;> rfl
theorem after_ops1_v14 (W : Valuation τ sig (Elt F)) :
    after hostOps1 W (Proc.devRef .tc main_v14) = keyIx (W (Proc.devRef .tc main_arg0)) := by
  after_results <;> rfl
theorem after_ops1_v13 (W : Valuation τ sig (Elt F)) :
    after hostOps1 W (Proc.devRef .tc main_v13) = queryPlane (W (Proc.devRef .tc main_arg0)) := by
  after_results <;> rfl

/-! The one line between the two calls: the query indices' trailing unit axis. -/

theorem after_ops12_v16 (W : Valuation τ sig (Elt F)) :
    after hostOps1_2 W (Proc.devRef .tc main_v16)
      = broadcastInDim S4x1048576x1 ![0, 1] bcast_S4x1048576_S4x1048576x1_0_1 (W (Proc.devRef .tc main_v13) : (⟨S4x1048576, .i32⟩ : BufTy).Contents (Elt F)) := by
  after_results <;> rfl
theorem after_ops12_v15 (W : Valuation τ sig (Elt F)) :
    after hostOps1_2 W (Proc.devRef .tc main_v15) = W (Proc.devRef .tc main_v15) := by after_results
theorem after_ops12_v7 (W : Valuation τ sig (Elt F)) :
    after hostOps1_2 W (Proc.devRef .tc main_v7) = W (Proc.devRef .tc main_v7) := by after_results

/-! The lines before the projection kernel (the features flattened to rows, the weights transposed, the biases as
    rows) and the closing reshape. -/

theorem after_ops0_v0 (W : Valuation τ sig (Elt F)) :
    after hostOps0 W (Proc.devRef .tc main_v0)
      = shapeCast S65536x128 (W (Proc.devRef .tc main_arg2) : (⟨S4x16384x128, .f32⟩ : BufTy).Contents (Elt F)) shapeCasts_S4x16384x128_S65536x128 := by
  after_results <;> rfl
theorem after_ops0_v1 (W : Valuation τ sig (Elt F)) :
    after hostOps0 W (Proc.devRef .tc main_v1)
      = transpose S128x32 [1, 0] (W (Proc.devRef .tc main_arg3) : (⟨S32x128, .f32⟩ : BufTy).Contents (Elt F)) transposes_S32x128_S128x32_1_0 := by
  after_results <;> rfl
theorem after_ops0_v2 (W : Valuation τ sig (Elt F)) :
    after hostOps0 W (Proc.devRef .tc main_v2)
      = transpose S128x32 [1, 0] (W (Proc.devRef .tc main_arg5) : (⟨S32x128, .f32⟩ : BufTy).Contents (Elt F)) transposes_S32x128_S128x32_1_0 := by
  after_results <;> rfl
theorem after_ops0_v3 (W : Valuation τ sig (Elt F)) :
    after hostOps0 W (Proc.devRef .tc main_v3)
      = shapeCast S1x32 (W (Proc.devRef .tc main_arg4) : (⟨S32, .f32⟩ : BufTy).Contents (Elt F)) shapeCasts_S32_S1x32 := by
  after_results <;> rfl
theorem after_ops0_v4 (W : Valuation τ sig (Elt F)) :
    after hostOps0 W (Proc.devRef .tc main_v4)
      = shapeCast S1x32 (W (Proc.devRef .tc main_arg6) : (⟨S32, .f32⟩ : BufTy).Contents (Elt F)) shapeCasts_S32_S1x32 := by
  after_results <;> rfl
theorem after_ops0_arg0 (W : Valuation τ sig (Elt F)) :
    after hostOps0 W (Proc.devRef .tc main_arg0) = W (Proc.devRef .tc main_arg0) := by after_results
theorem after_ops2_v19 (W : Valuation τ sig (Elt F)) :
    after hostOps2 W (Proc.devRef .tc main_v19)
      = shapeCast S4x16384x64 (W (Proc.devRef .tc main_v18) : (⟨S4x1048576, .f32⟩ : BufTy).Contents (Elt F)) shapeCasts_S4x1048576_S4x16384x64 := by
  after_results <;> rfl

end Cert.KernelIdeal.Mid

end
-- ==== Proof.KProj.lean ====
/-
  What the projection kernel leaves in its two result arrays, for ANY contents of its operand arrays when it is
  entered. The operands are the flattened features x, a [65536, 128] array (row r = node n of batch b, r = 16384·b + n),
  two transposed weight matrices, [128, 32] arrays, and two bias rows, [1, 32] arrays; each result is a [65536, 32]
  array. Point t of the 8 grid points loads rows 8192·t … 8192·t + 8191 of x and the whole of the weights and biases,
  and writes back to the same rows of each result the matrix product of the rows with a weight matrix plus its bias row.
  The 8 row ranges tile each result, so after the last point entry (r, d) of a result is
  (Σ_k x[r, k] · w[k, d]) + bias[0, d] for its weight matrix w and its bias.
-/
import proofs.«169757_j55697135894755_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- Entry `k` of the features' row that result entry `i` = (r, d) is computed from. -/
abbrev featAt (i : S65536x32.Idx) (k : Fin 128) : S65536x128.Idx := fun a => match a with
  | ⟨0, _⟩ => ⟨(i 0).val, (i 0).isLt⟩
  | ⟨1, _⟩ => ⟨k.val, k.isLt⟩
/-- Entry (k, d) of a transposed weight matrix. -/
abbrev wAt (i : S65536x32.Idx) (k : Fin 128) : S128x32.Idx := fun a => match a with
  | ⟨0, _⟩ => ⟨k.val, k.isLt⟩
  | ⟨1, _⟩ => ⟨(i 1).val, (i 1).isLt⟩
/-- Entry (0, d) of a bias row. -/
abbrev biasAt (i : S65536x32.Idx) : S1x32.Idx := fun a => match a with
  | ⟨0, _⟩ => ⟨0, Nat.one_pos⟩
  | ⟨1, _⟩ => ⟨(i 1).val, (i 1).isLt⟩

/-- The same three inside a block of 8192 rows. -/
abbrev blkFeat (y : S8192x32.Idx) (k : Fin 128) : S8192x128.Idx := fun a => match a with
  | ⟨0, _⟩ => ⟨(y 0).val, (y 0).isLt⟩
  | ⟨1, _⟩ => ⟨k.val, k.isLt⟩
abbrev blkW (y : S8192x32.Idx) (k : Fin 128) : S128x32.Idx := fun a => match a with
  | ⟨0, _⟩ => ⟨k.val, k.isLt⟩
  | ⟨1, _⟩ => ⟨(y 1).val, (y 1).isLt⟩
abbrev blkBias (y : S8192x32.Idx) : S1x32.Idx := fun a => match a with
  | ⟨0, _⟩ => ⟨0, Nat.one_pos⟩
  | ⟨1, _⟩ => ⟨(y 1).val, (y 1).isLt⟩

/-- The projected rows: (Σ_k x[r, k] · w[k, d]) + bias[0, d]. -/
def projRows (x : S65536x128.Idx → EReal) (w : S128x32.Idx → EReal) (b : S1x32.Idx → EReal) : S65536x32.Idx → EReal :=
  fun i => (∑ k : Fin 128, x (featAt i k) * w (wAt i k)) + b (biasAt i)

/-! The matrix product's operand indices: the left operand's row is the result's row and its column the contracted
    coordinate; the right operand's row is the contracted coordinate and its column the result's column. -/
theorem lhs_0 (i : S8192x32.Idx) (q : dot_S8192x128_S128x32_S8192x32_1_0_0_1_n_n.contr.Idx) : (dot_S8192x128_S128x32_S8192x32_1_0_0_1_n_n.lhsIdx i q 0).val = (i 0).val := by
  unfold DotDims.lhsIdx
  rw [dif_neg (show ¬(0 : Fin S8192x128.rank) ∈ dot_S8192x128_S128x32_S8192x32_1_0_0_1_n_n.lhsBatch by decide), dif_pos (show (0 : Fin S8192x128.rank) ∈ dot_S8192x128_S128x32_S8192x32_1_0_0_1_n_n.lhsNonContracting by decide)]
  rfl
theorem lhs_1 (i : S8192x32.Idx) (q : dot_S8192x128_S128x32_S8192x32_1_0_0_1_n_n.contr.Idx) : (dot_S8192x128_S128x32_S8192x32_1_0_0_1_n_n.lhsIdx i q 1).val = (q ⟨0, by decide⟩).val :=
  dot_S8192x128_S128x32_S8192x32_1_0_0_1_n_n.lhsIdx_val_of_single rfl i q
theorem rhs_0 (i : S8192x32.Idx) (q : dot_S8192x128_S128x32_S8192x32_1_0_0_1_n_n.contr.Idx) : (dot_S8192x128_S128x32_S8192x32_1_0_0_1_n_n.rhsIdx i q 0).val = (q ⟨0, by decide⟩).val :=
  dot_S8192x128_S128x32_S8192x32_1_0_0_1_n_n.rhsIdx_val_of_single rfl i q
theorem rhs_1 (i : S8192x32.Idx) (q : dot_S8192x128_S128x32_S8192x32_1_0_0_1_n_n.contr.Idx) : (dot_S8192x128_S128x32_S8192x32_1_0_0_1_n_n.rhsIdx i q 1).val = (i 1).val := by
  unfold DotDims.rhsIdx
  rw [dif_neg (show ¬(1 : Fin S128x32.rank) ∈ dot_S8192x128_S128x32_S8192x32_1_0_0_1_n_n.rhsBatch by decide), dif_pos (show (1 : Fin S128x32.rank) ∈ dot_S8192x128_S128x32_S8192x32_1_0_0_1_n_n.rhsNonContracting by decide)]
  rfl

/-- The body's arithmetic for the key projection at entry (r, d) of a block: the change of float format is the identity on
    the extended reals, the matrix product into a zero accumulator is the plain sum over the 128 latent coordinates,
    and the bias row is added to every row. -/
theorem k0_pay2_apply (x0 : Vec Ideal S8192x128 .f32) (x1 : Vec Ideal S128x32 .f32) (x2 : Vec Ideal S1x32 .f32) (y : S8192x32.Idx) :
    k0_pay2 (F := Ideal) x0 x1 x2 y = (∑ k : Fin 128, x0 (blkFeat y k) * x1 (blkW y k)) + x2 (blkBias y) := by
  unfold k0_pay2 k0_pay1
  dsimp only
  rw [shapeCast_self, shapeCast_self, shapeCast_self]
  refine (ValueIdx.addf_apply _ _ y).trans ?_
  refine congrArg₂ (· + ·) ?_ ?_
  · refine (Ideal.matmul_constant_zero_apply dot_S8192x128_S128x32_S8192x32_1_0_0_1_n_n none _ _ y).trans ?_
    rw [← Equiv.sum_comp (ValueIdx.contrEquiv1 dot_S8192x128_S128x32_S8192x32_1_0_0_1_n_n 128 rfl rfl).symm]
    refine Finset.sum_congr rfl fun k _ => ?_
    have hk := ValueIdx.contrEquiv1_symm_val dot_S8192x128_S128x32_S8192x32_1_0_0_1_n_n 128 rfl rfl k
    have el : dot_S8192x128_S128x32_S8192x32_1_0_0_1_n_n.lhsIdx y ((ValueIdx.contrEquiv1 dot_S8192x128_S128x32_S8192x32_1_0_0_1_n_n 128 rfl rfl).symm k) = blkFeat y k := funext fun a => Fin.ext (by
      match a with
      | ⟨0, _⟩ => exact lhs_0 _ _
      | ⟨1, _⟩ => exact (lhs_1 _ _).trans hk)
    have er : dot_S8192x128_S128x32_S8192x32_1_0_0_1_n_n.rhsIdx y ((ValueIdx.contrEquiv1 dot_S8192x128_S128x32_S8192x32_1_0_0_1_n_n 128 rfl rfl).symm k) = blkW y k := funext fun a => Fin.ext (by
      match a with
      | ⟨0, _⟩ => exact (rhs_0 _ _).trans hk
      | ⟨1, _⟩ => exact rhs_1 _ _)
    rw [el, er]
    rfl
  · exact broadcastTo_apply x2 broadcasts_S1x32_S8192x32 y (blkBias y) (fun a => match a with
      | ⟨0, _⟩ => by show 0 = if (1 : Nat) = 1 then 0 else (y 0).val; rw [if_pos rfl]
      | ⟨1, _⟩ => by show (y 1).val = if (32 : Nat) = 1 then 0 else (y 1).val; rw [if_neg (by decide)])

/-- The body's arithmetic for the query projection at entry (r, d) of a block: the change of float format is the identity on
    the extended reals, the matrix product into a zero accumulator is the plain sum over the 128 latent coordinates,
    and the bias row is added to every row. -/
theorem k0_pay3_apply (x0 : Vec Ideal S8192x128 .f32) (x1 : Vec Ideal S128x32 .f32) (x2 : Vec Ideal S1x32 .f32) (y : S8192x32.Idx) :
    k0_pay3 (F := Ideal) x0 x1 x2 y = (∑ k : Fin 128, x0 (blkFeat y k) * x1 (blkW y k)) + x2 (blkBias y) := by
  unfold k0_pay3 k0_pay1
  dsimp only
  rw [shapeCast_self, shapeCast_self, shapeCast_self]
  refine (ValueIdx.addf_apply _ _ y).trans ?_
  refine congrArg₂ (· + ·) ?_ ?_
  · refine (Ideal.matmul_constant_zero_apply dot_S8192x128_S128x32_S8192x32_1_0_0_1_n_n none _ _ y).trans ?_
    rw [← Equiv.sum_comp (ValueIdx.contrEquiv1 dot_S8192x128_S128x32_S8192x32_1_0_0_1_n_n 128 rfl rfl).symm]
    refine Finset.sum_congr rfl fun k _ => ?_
    have hk := ValueIdx.contrEquiv1_symm_val dot_S8192x128_S128x32_S8192x32_1_0_0_1_n_n 128 rfl rfl k
    have el : dot_S8192x128_S128x32_S8192x32_1_0_0_1_n_n.lhsIdx y ((ValueIdx.contrEquiv1 dot_S8192x128_S128x32_S8192x32_1_0_0_1_n_n 128 rfl rfl).symm k) = blkFeat y k := funext fun a => Fin.ext (by
      match a with
      | ⟨0, _⟩ => exact lhs_0 _ _
      | ⟨1, _⟩ => exact (lhs_1 _ _).trans hk)
    have er : dot_S8192x128_S128x32_S8192x32_1_0_0_1_n_n.rhsIdx y ((ValueIdx.contrEquiv1 dot_S8192x128_S128x32_S8192x32_1_0_0_1_n_n 128 rfl rfl).symm k) = blkW y k := funext fun a => Fin.ext (by
      match a with
      | ⟨0, _⟩ => exact (rhs_0 _ _).trans hk
      | ⟨1, _⟩ => exact rhs_1 _ _)
    rw [el, er]
    rfl
  · exact broadcastTo_apply x2 broadcasts_S1x32_S8192x32 y (blkBias y) (fun a => match a with
      | ⟨0, _⟩ => by show 0 = if (1 : Nat) = 1 then 0 else (y 0).val; rw [if_pos rfl]
      | ⟨1, _⟩ => by show (y 1).val = if (32 : Nat) = 1 then 0 else (y 1).val; rw [if_neg (by decide)])

/-- The printed index maps over the 8 points: the features' block and both results' blocks sit at row block t, every
    weight matrix and bias row at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What point `t` writes back through the key window is block `t` of the projected rows. -/
theorem flushed5_eq (c : Dev nD) (t : Fin cfg0.N) :
    (dat0 V c).flushed 5 t
      = ((cfg0.win 5).blk t).view.read (Elt Ideal) (projRows (V c main_v0) (V c main_v1) (V c main_v3)) := by
  show (cfg0.win 5).cut (grid0.coords t) ((dat0 V c).after 5 t) = _
  rw [after0_5]
  unfold out0_5
  rw [View.canon_unit_zero hz2]
  simp only [View.ld_unit_zero (S := S8192x128) hz2, View.ld_unit_zero (S := S128x32) hz2, View.ld_unit_zero (S := S1x32) hz2]
  obtain ⟨f0, f1, w0, w1, b0, b1, q0, q1, p0, p1, o50, o51, o60, o61⟩ := idx_facts t
  funext j
  show k0_pay2 (F := Ideal) (iblk0 V c 0 t) (iblk0 V c 1 t) (iblk0 V c 2 t) j
      = projRows (V c main_v0) (V c main_v1) (V c main_v3) (((cfg0.win 5).blk t).view.emb j)
  refine (k0_pay2_apply (iblk0 V c 0 t) (iblk0 V c 1 t) (iblk0 V c 2 t) j).trans ?_
  unfold projRows
  have hb : ((cfg0.win 2).blk t).view.emb (blkBias j) = biasAt (((cfg0.win 5).blk t).view.emb j) := by
    funext a; apply Fin.ext
    match a with
    | ⟨0, _⟩ => show win0_2.index t (0 : Fin 2) * 1 + 1 * 0 = 0; omega
    | ⟨1, _⟩ => show win0_2.index t (1 : Fin 2) * 32 + 1 * (j 1).val = win0_5.index t (1 : Fin 2) * 32 + 1 * (j 1).val; omega
  refine congrArg₂ (· + ·) (Finset.sum_congr rfl fun k _ => ?_) ?_
  · have hf : ((cfg0.win 0).blk t).view.emb (blkFeat j k) = featAt (((cfg0.win 5).blk t).view.emb j) k := by
      funext a; apply Fin.ext
      match a with
      | ⟨0, _⟩ => show win0_0.index t (0 : Fin 2) * 8192 + 1 * (j 0).val = win0_5.index t (0 : Fin 2) * 8192 + 1 * (j 0).val; omega
      | ⟨1, _⟩ => show win0_0.index t (1 : Fin 2) * 128 + 1 * k.val = k.val; omega
    have hw : ((cfg0.win 1).blk t).view.emb (blkW j k) = wAt (((cfg0.win 5).blk t).view.emb j) k := by
      funext a; apply Fin.ext
      match a with
      | ⟨0, _⟩ => show win0_1.index t (0 : Fin 2) * 128 + 1 * k.val = k.val; omega
      | ⟨1, _⟩ => show win0_1.index t (1 : Fin 2) * 32 + 1 * (j 1).val = win0_5.index t (1 : Fin 2) * 32 + 1 * (j 1).val; omega
    show @HMul.hMul EReal EReal EReal _ (V c main_v0 (((cfg0.win 0).blk t).view.emb (blkFeat j k))) (V c main_v1 (((cfg0.win 1).blk t).view.emb (blkW j k))) = _
    rw [hf, hw]
  · show (V c main_v3 : S1x32.Idx → EReal) (((cfg0.win 2).blk t).view.emb (blkBias j)) = _
    rw [hb]

/-- An index of the key array is in point `t`'s block iff each coordinate is in the block's range on its axis. -/
theorem mem_blk5 (t : Fin cfg0.N) (i : S65536x32.Idx) :
    i ∈ ((cfg0.win 5).blk t).view.set ↔ ∀ a : Fin 2, win0_5.index t a * S8192x32.size a ≤ (i a).val ∧ (i a).val < win0_5.index t a * S8192x32.size a + S8192x32.size a := by
  show i ∈ ((View.whole main_v5_0).slice (win0_5.rect t)).set ↔ _
  rw [View.set_slice_whole, Rect.mem_set_unit]
  exact Iff.rfl

/-- THE KEY ARRAY after the last point: the projected rows, everywhere (the 8 row blocks tile it). -/
theorem final5 (c : Dev nD) : (dat0 V c).arrAt 5 cfg0.N = projRows (V c main_v0) (V c main_v1) (V c main_v3) :=
  (dat0 V c).arrAt_eq_of_cover 5 (projRows (V c main_v0) (V c main_v1) (V c main_v3)) (fun t _ => flushed5_eq V c t) fun i => by
    have hi0 : (i 0).val < 65536 := (i 0).isLt
    have hi1 : (i 1).val < 32 := (i 1).isLt
    have hN : cfg0.N = 8 := N_0
    refine ⟨⟨(i 0).val / 8192, by rw [hN]; omega⟩, flush0_5 _, ?_⟩
    rw [mem_blk5]
    obtain ⟨-, -, -, -, -, -, -, -, -, -, o50, o51, o60, o61⟩ := idx_facts ⟨(i 0).val / 8192, by rw [hN]; omega⟩
    intro a
    match a with
    | ⟨0, _⟩ => show win0_5.index _ (0 : Fin 2) * 8192 ≤ (i 0).val ∧ (i 0).val < win0_5.index _ (0 : Fin 2) * 8192 + 8192; rw [o50]; show (i 0).val / 8192 * 8192 ≤ (i 0).val ∧ (i 0).val < (i 0).val / 8192 * 8192 + 8192; omega
    | ⟨1, _⟩ => show win0_5.index _ (1 : Fin 2) * 32 ≤ (i 1).val ∧ (i 1).val < win0_5.index _ (1 : Fin 2) * 32 + 32; rw [o51]; omega

/-- What point `t` writes back through the query window is block `t` of the projected rows. -/
theorem flushed6_eq (c : Dev nD) (t : Fin cfg0.N) :
    (dat0 V c).flushed 6 t
      = ((cfg0.win 6).blk t).view.read (Elt Ideal) (projRows (V c main_v0) (V c main_v2) (V c main_v4)) := by
  show (cfg0.win 6).cut (grid0.coords t) ((dat0 V c).after 6 t) = _
  rw [after0_6]
  unfold out0_6
  rw [View.canon_unit_zero hz2]
  simp only [View.ld_unit_zero (S := S8192x128) hz2, View.ld_unit_zero (S := S128x32) hz2, View.ld_unit_zero (S := S1x32) hz2]
  obtain ⟨f0, f1, w0, w1, b0, b1, q0, q1, p0, p1, o50, o51, o60, o61⟩ := idx_facts t
  funext j
  show k0_pay3 (F := Ideal) (iblk0 V c 0 t) (iblk0 V c 3 t) (iblk0 V c 4 t) j
      = projRows (V c main_v0) (V c main_v2) (V c main_v4) (((cfg0.win 6).blk t).view.emb j)
  refine (k0_pay3_apply (iblk0 V c 0 t) (iblk0 V c 3 t) (iblk0 V c 4 t) j).trans ?_
  unfold projRows
  have hb : ((cfg0.win 4).blk t).view.emb (blkBias j) = biasAt (((cfg0.win 6).blk t).view.emb j) := by
    funext a; apply Fin.ext
    match a with
    | ⟨0, _⟩ => show win0_4.index t (0 : Fin 2) * 1 + 1 * 0 = 0; omega
    | ⟨1, _⟩ => show win0_4.index t (1 : Fin 2) * 32 + 1 * (j 1).val = win0_6.index t (1 : Fin 2) * 32 + 1 * (j 1).val; omega
  refine congrArg₂ (· + ·) (Finset.sum_congr rfl fun k _ => ?_) ?_
  · have hf : ((cfg0.win 0).blk t).view.emb (blkFeat j k) = featAt (((cfg0.win 6).blk t).view.emb j) k := by
      funext a; apply Fin.ext
      match a with
      | ⟨0, _⟩ => show win0_0.index t (0 : Fin 2) * 8192 + 1 * (j 0).val = win0_6.index t (0 : Fin 2) * 8192 + 1 * (j 0).val; omega
      | ⟨1, _⟩ => show win0_0.index t (1 : Fin 2) * 128 + 1 * k.val = k.val; omega
    have hw : ((cfg0.win 3).blk t).view.emb (blkW j k) = wAt (((cfg0.win 6).blk t).view.emb j) k := by
      funext a; apply Fin.ext
      match a with
      | ⟨0, _⟩ => show win0_3.index t (0 : Fin 2) * 128 + 1 * k.val = k.val; omega
      | ⟨1, _⟩ => show win0_3.index t (1 : Fin 2) * 32 + 1 * (j 1).val = win0_6.index t (1 : Fin 2) * 32 + 1 * (j 1).val; omega
    show @HMul.hMul EReal EReal EReal _ (V c main_v0 (((cfg0.win 0).blk t).view.emb (blkFeat j k))) (V c main_v2 (((cfg0.win 3).blk t).view.emb (blkW j k))) = _
    rw [hf, hw]
  · show (V c main_v4 : S1x32.Idx → EReal) (((cfg0.win 4).blk t).view.emb (blkBias j)) = _
    rw [hb]

/-- An index of the query array is in point `t`'s block iff each coordinate is in the block's range on its axis. -/
theorem mem_blk6 (t : Fin cfg0.N) (i : S65536x32.Idx) :
    i ∈ ((cfg0.win 6).blk t).view.set ↔ ∀ a : Fin 2, win0_6.index t a * S8192x32.size a ≤ (i a).val ∧ (i a).val < win0_6.index t a * S8192x32.size a + S8192x32.size a := by
  show i ∈ ((View.whole main_v5_1).slice (win0_6.rect t)).set ↔ _
  rw [View.set_slice_whole, Rect.mem_set_unit]
  exact Iff.rfl

/-- THE QUERY ARRAY after the last point: the projected rows, everywhere (the 8 row blocks tile it). -/
theorem final6 (c : Dev nD) : (dat0 V c).arrAt 6 cfg0.N = projRows (V c main_v0) (V c main_v2) (V c main_v4) :=
  (dat0 V c).arrAt_eq_of_cover 6 (projRows (V c main_v0) (V c main_v2) (V c main_v4)) (fun t _ => flushed6_eq V c t) fun i => by
    have hi0 : (i 0).val < 65536 := (i 0).isLt
    have hi1 : (i 1).val < 32 := (i 1).isLt
    have hN : cfg0.N = 8 := N_0
    refine ⟨⟨(i 0).val / 8192, by rw [hN]; omega⟩, flush0_6 _, ?_⟩
    rw [mem_blk6]
    obtain ⟨-, -, -, -, -, -, -, -, -, -, o50, o51, o60, o61⟩ := idx_facts ⟨(i 0).val / 8192, by rw [hN]; omega⟩
    intro a
    match a with
    | ⟨0, _⟩ => show win0_6.index _ (0 : Fin 2) * 8192 ≤ (i 0).val ∧ (i 0).val < win0_6.index _ (0 : Fin 2) * 8192 + 8192; rw [o60]; show (i 0).val / 8192 * 8192 ≤ (i 0).val ∧ (i 0).val < (i 0).val / 8192 * 8192 + 8192; omega
    | ⟨1, _⟩ => show win0_6.index _ (1 : Fin 2) * 32 ≤ (i 1).val ∧ (i 1).val < win0_6.index _ (1 : Fin 2) * 32 + 32; rw [o61]; omega

end Cert.KernelIdeal.Proj

end
-- ==== Proof.KAffinity.lean ====
/-
  What the affinity kernel leaves in its result array, for ANY contents of its two operand arrays when it is entered.
  The operands are [4, 1048576, 32] arrays X and Y (for each batch b and edge e a row of 32 numbers), the result a
  [4, 1048576] array. Point t of the 512 grid points loads rows 2048·t … 2048·t + 2047 of every batch of both operands,
  multiplies them entry by entry, adds each row's 32 products and scales the sum by the constant the program carries,
  and writes the 4 × 2048 results back to the same rows of the result. The 512 row ranges tile the result, so after
  the last point entry (b, e) of the result is (Σ_k X[b, e, k] · Y[b, e, k]) · scale.
-/
import proofs.«169757_j55697135894755_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Aff

open Cert.KernelIdeal Cert.KernelIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `k` of row (b, e) of a [4, 1048576, 32] array. -/
abbrev edgeAt (j : S4x1048576.Idx) (k : Fin 32) : S4x1048576x32.Idx := fun a => match a with
  | ⟨0, _⟩ => ⟨(j 0).val, (j 0).isLt⟩
  | ⟨1, _⟩ => ⟨(j 1).val, (j 1).isLt⟩
  | ⟨2, _⟩ => ⟨k.val, k.isLt⟩

/-- Entry `k` of row (b, r) of a [4, 2048, 32] block. -/
abbrev blockAt (y : S4x2048.Idx) (k : Fin 32) : S4x2048x32.Idx := fun a => match a with
  | ⟨0, _⟩ => ⟨(y 0).val, (y 0).isLt⟩
  | ⟨1, _⟩ => ⟨(y 1).val, (y 1).isLt⟩
  | ⟨2, _⟩ => ⟨k.val, k.isLt⟩

/-- Each row's dot product, scaled: (Σ_k X[b, e, k] · Y[b, e, k]) · scale. -/
def scaledDots (X Y : S4x1048576x32.Idx → EReal) : S4x1048576.Idx → EReal :=
  fun j => (∑ k : Fin 32, X (edgeAt j k) * Y (edgeAt j k)) * Ideal.ofBits .f32 0x3E3504F3#32

/-- The body's arithmetic at entry (b, r) of a block: the lane sum into a zero accumulator is the plain sum of the 32
    products, and the splat constant multiplies it. -/
theorem pay_apply (x0 x2 : Vec Ideal S4x2048x32 .f32) (y : S4x2048.Idx) :
    k1_pay1 (F := Ideal) x0 x2 y = (∑ k : Fin 32, x0 (blockAt y k) * x2 (blockAt y k)) * Ideal.ofBits .f32 0x3E3504F3#32 := by
  unfold k1_pay1
  dsimp only
  rw [shapeCast_self, shapeCast_self]
  refine (ValueIdx.mulf_apply _ _ y).trans ?_
  refine congrArg₂ (· * ·) ?_ rfl
  refine (Ideal.multiReduction_add_single (mulf x0 x2) 0x00000000#32 reduces_S4x2048x32_S4x2048 (.inl rfl) rfl y).trans ?_
  refine Finset.sum_congr rfl fun k _ => ?_
  have e : reduces_S4x2048x32_S4x2048.lift y k = blockAt y k :=
    funext fun a => Fin.ext (by match a with | ⟨0, _⟩ => rfl | ⟨1, _⟩ => rfl | ⟨2, _⟩ => rfl)
  rw [e]
  rfl

/-- The printed index maps over the 512 points: the operands' blocks and the result's block all sit at batch block 0
    and row block t (and the operands at lane block 0). -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = t.val :=
  (by decide +kernel : ∀ t : Fin grid1.N, _)

variable (V : (c : Dev nD) → (b : Ref sig .tc) → Buf (Elt Ideal) ((c : Thread nD τ).loc b))

/-- What point `t` writes back is block `t` of the scaled row dot products of the operand arrays as the kernel finds
    them. -/
theorem flushed_eq (c : Dev nD) (t : Fin cfg1.N) :
    (dat1 V c).flushed 2 t
      = ((cfg1.win 2).blk t).view.read (Elt Ideal) (scaledDots (V c main_v15) (V c main_v17)) := by
  show (cfg1.win 2).cut (grid1.coords t) ((dat1 V c).after 2 t) = _
  rw [after1_2]
  unfold out1_2
  rw [View.canon_unit_zero hz2]
  simp only [View.ld_unit_zero (S := S4x2048x32) hz3]
  obtain ⟨a0, a1, a2, b0, b1, b2, o0, o1⟩ := idx_facts t
  funext j
  show k1_pay1 (F := Ideal) (iblk1 V c 0 t) (iblk1 V c 1 t) j
      = scaledDots (V c main_v15) (V c main_v17) (((cfg1.win 2).blk t).view.emb j)
  refine (pay_apply (iblk1 V c 0 t) (iblk1 V c 1 t) j).trans ?_
  unfold scaledDots
  refine congrArg₂ (· * ·) (Finset.sum_congr rfl fun k _ => ?_) rfl
  have h0 : ((cfg1.win 0).blk t).view.emb (blockAt j k) = edgeAt (((cfg1.win 2).blk t).view.emb j) k := by
    funext a; apply Fin.ext
    match a with
    | ⟨0, _⟩ => show win1_0.index t (0 : Fin 3) * 4 + 1 * (j 0).val = win1_2.index t (0 : Fin 2) * 4 + 1 * (j 0).val; omega
    | ⟨1, _⟩ => show win1_0.index t (1 : Fin 3) * 2048 + 1 * (j 1).val = win1_2.index t (1 : Fin 2) * 2048 + 1 * (j 1).val; omega
    | ⟨2, _⟩ => show win1_0.index t (2 : Fin 3) * 32 + 1 * k.val = k.val; omega
  have h1 : ((cfg1.win 1).blk t).view.emb (blockAt j k) = edgeAt (((cfg1.win 2).blk t).view.emb j) k := by
    funext a; apply Fin.ext
    match a with
    | ⟨0, _⟩ => show win1_1.index t (0 : Fin 3) * 4 + 1 * (j 0).val = win1_2.index t (0 : Fin 2) * 4 + 1 * (j 0).val; omega
    | ⟨1, _⟩ => show win1_1.index t (1 : Fin 3) * 2048 + 1 * (j 1).val = win1_2.index t (1 : Fin 2) * 2048 + 1 * (j 1).val; omega
    | ⟨2, _⟩ => show win1_1.index t (2 : Fin 3) * 32 + 1 * k.val = k.val; omega
  show @HMul.hMul EReal EReal EReal _ (V c main_v15 (((cfg1.win 0).blk t).view.emb (blockAt j k))) (V c main_v17 (((cfg1.win 1).blk t).view.emb (blockAt j k))) = _
  rw [h0, h1]

/-- An index of the result array is in point `t`'s block iff each coordinate is in the block's range on its axis. -/
theorem mem_blk (t : Fin cfg1.N) (i : S4x1048576.Idx) :
    i ∈ ((cfg1.win 2).blk t).view.set ↔ ∀ a : Fin 2, win1_2.index t a * S4x2048.size a ≤ (i a).val ∧ (i a).val < win1_2.index t a * S4x2048.size a + S4x2048.size a := by
  show i ∈ ((View.whole main_v18).slice (win1_2.rect t)).set ↔ _
  rw [View.set_slice_whole, Rect.mem_set_unit]
  exact Iff.rfl

/-- THE RESULT ARRAY after the last point: the scaled row dot products of the operand arrays, everywhere. -/
theorem final (c : Dev nD) : (dat1 V c).arrAt 2 cfg1.N = scaledDots (V c main_v15) (V c main_v17) :=
  (dat1 V c).arrAt_eq_of_cover 2 (scaledDots (V c main_v15) (V c main_v17)) (fun t _ => flushed_eq V c t) fun i => by
    have hi0 : (i 0).val < 4 := (i 0).isLt
    have hi1 : (i 1).val < 1048576 := (i 1).isLt
    have hN : cfg1.N = 512 := N_1
    refine ⟨⟨(i 1).val / 2048, by rw [hN]; omega⟩, flush1_2 _, ?_⟩
    rw [mem_blk]
    obtain ⟨-, -, -, -, -, -, o0, o1⟩ := idx_facts ⟨(i 1).val / 2048, by rw [hN]; omega⟩
    intro a
    match a with
    | ⟨0, _⟩ => show win1_2.index _ (0 : Fin 2) * 4 ≤ (i 0).val ∧ (i 0).val < win1_2.index _ (0 : Fin 2) * 4 + 4; rw [o0]; omega
    | ⟨1, _⟩ => show win1_2.index _ (1 : Fin 2) * 2048 ≤ (i 1).val ∧ (i 1).val < win1_2.index _ (1 : Fin 2) * 2048 + 2048; rw [o1]; show (i 1).val / 2048 * 2048 ≤ (i 1).val ∧ (i 1).val < (i 1).val / 2048 * 2048 + 2048; omega

end Cert.KernelIdeal.Aff

end
-- ==== Proof.KWhole.lean ====
/-
  The idealized kernel's result as ONE function of the argument arrays. Reading the program's eight segments from the
  last to the first: the result is the closing reshape to [4, 16384, 64] of the affinity kernel's array; that array is
  the scaled row dot products of its two operands; the operands are the rows gathered, at the key indices and at the
  query indices (planes 1 and 2 of the index argument), from the key table and the query table; each table is a result
  of the projection kernel regrouped by batch, that is (features · weightᵀ + bias) for the key weights and bias and
  for the query weights and bias. The image argument is read by nothing.
-/
import proofs.«169757_j55697135894755_2_alg».proof.Proof.KernelRun
import proofs.«169757_j55697135894755_2_alg».proof.Proof.KGather
import proofs.«169757_j55697135894755_2_alg».proof.Proof.KProj
import proofs.«169757_j55697135894755_2_alg».proof.Proof.KAffinity

set_option maxRecDepth 16384

noncomputable section

namespace Cert.KernelIdeal.Res

open Cert.KernelIdeal Cert.KernelIdeal.Gen
open Idealize.ShloMosaic Idealize.ShloMosaic.TcCoe Idealize.SL.Sem Idealize.ShloMosaic.StableHlo

/-- A table of the projection: (features · weightᵀ + bias), one row of 32 numbers per batch and node. -/
def table (x : (⟨S4x16384x128, .f32⟩ : BufTy).Contents (Elt Ideal)) (w : (⟨S32x128, .f32⟩ : BufTy).Contents (Elt Ideal))
    (b : (⟨S32, .f32⟩ : BufTy).Contents (Elt Ideal)) : (⟨S4x16384x32, .f32⟩ : BufTy).Contents (Elt Ideal) :=
  shapeCast S4x16384x32
    (Proj.projRows (shapeCast S65536x128 x shapeCasts_S4x16384x128_S65536x128) (transpose S128x32 [1, 0] w transposes_S32x128_S128x32_1_0)
      (shapeCast S1x32 b shapeCasts_S32_S1x32))
    shapeCasts_S65536x32_S4x16384x32

/-- The program's result of its arguments (indices, features, key weights and bias, query weights and bias). -/
def result (x0 : (⟨S3x4x16384x64, .i32⟩ : BufTy).Contents (Elt Ideal)) (x2 : (⟨S4x16384x128, .f32⟩ : BufTy).Contents (Elt Ideal))
    (x3 : (⟨S32x128, .f32⟩ : BufTy).Contents (Elt Ideal)) (x4 : (⟨S32, .f32⟩ : BufTy).Contents (Elt Ideal))
    (x5 : (⟨S32x128, .f32⟩ : BufTy).Contents (Elt Ideal)) (x6 : (⟨S32, .f32⟩ : BufTy).Contents (Elt Ideal)) :
    (⟨S4x16384x64, .f32⟩ : BufTy).Contents (Elt Ideal) :=
  shapeCast S4x16384x64
    (Aff.scaledDots (Mid.takeRows (table x2 x3 x4) (Mid.keyIx x0)) (Mid.takeRows (table x2 x5 x6) (Mid.queryIx x0)))
    shapeCasts_S4x1048576_S4x16384x64

variable (m : (ℓ : Loc nD τ sig) → Buf (Elt Ideal) ℓ) (ρ : Dev nD → PrngReg)

/-- The index argument is as launched when the gathers read it. -/
theorem idx_kept (c : Dev nD) : W2 m ρ c (Proc.devRef .tc main_arg0) = (m ((c.tc : Thread nD τ).loc main_arg0)) :=
  (W2_of_ne m ρ c main_arg0 (by decide)).trans ((Mid.after_ops0_arg0 (W0 m ρ c)).trans rfl)

/-- The key table the first gather reads. -/
theorem keys_eq (c : Dev nD) :
    W3 m ρ c (Proc.devRef .tc main_v6) = table (m ((c.tc : Thread nD τ).loc main_arg2)) (m ((c.tc : Thread nD τ).loc main_arg3)) (m ((c.tc : Thread nD τ).loc main_arg4)) := by
  have h1 := Mid.after_ops1_v6 (W2 m ρ c)
  have h2 : W2 m ρ c (Proc.devRef .tc main_v5_0) = (dat0 (V1 m ρ) c).arrAt 5 cfg0.N := W2_arr m ρ c 5
  have h3 := Proj.final5 (V1 m ρ) c
  have e0 : V1 m ρ c main_v0 = _ := Mid.after_ops0_v0 (W0 m ρ c)
  have e1 : V1 m ρ c main_v1 = _ := Mid.after_ops0_v1 (W0 m ρ c)
  have e3 : V1 m ρ c main_v3 = _ := Mid.after_ops0_v3 (W0 m ρ c)
  rw [e0, e1, e3] at h3
  rw [h3] at h2
  rw [h2] at h1
  exact h1

/-- The query table the second gather reads. -/
theorem queries_eq (c : Dev nD) :
    W3 m ρ c (Proc.devRef .tc main_v7) = table (m ((c.tc : Thread nD τ).loc main_arg2)) (m ((c.tc : Thread nD τ).loc main_arg5)) (m ((c.tc : Thread nD τ).loc main_arg6)) := by
  have h1 := Mid.after_ops1_v7 (W2 m ρ c)
  have h2 : W2 m ρ c (Proc.devRef .tc main_v5_1) = (dat0 (V1 m ρ) c).arrAt 6 cfg0.N := W2_arr m ρ c 6
  have h3 := Proj.final6 (V1 m ρ) c
  have e0 : V1 m ρ c main_v0 = _ := Mid.after_ops0_v0 (W0 m ρ c)
  have e2 : V1 m ρ c main_v2 = _ := Mid.after_ops0_v2 (W0 m ρ c)
  have e4 : V1 m ρ c main_v4 = _ := Mid.after_ops0_v4 (W0 m ρ c)
  rw [e0, e2, e4] at h3
  rw [h3] at h2
  rw [h2] at h1
  exact h1

/-- The affinity kernel's first operand: the key rows of every edge. -/
theorem keyRows_eq (c : Dev nD) :
    V6 m ρ c main_v15
      = Mid.takeRows (table (m ((c.tc : Thread nD τ).loc main_arg2)) (m ((c.tc : Thread nD τ).loc main_arg3)) (m ((c.tc : Thread nD τ).loc main_arg4))) (Mid.keyIx (m ((c.tc : Thread nD τ).loc main_arg0))) := by
  have s1 : W6 m ρ c (Proc.devRef .tc main_v15) = W5 m ρ c (Proc.devRef .tc main_v15) := Mid.after_call1_v15 (W5 m ρ c)
  have s2 : W5 m ρ c (Proc.devRef .tc main_v15) = W4 m ρ c (Proc.devRef .tc main_v15) := Mid.after_ops12_v15 (W4 m ρ c)
  have s3 : W4 m ρ c (Proc.devRef .tc main_v15) = Mid.takeRows (W3 m ρ c (Proc.devRef .tc main_v6)) (W3 m ρ c (Proc.devRef .tc main_v14)) :=
    Mid.after_call0 (W3 m ρ c)
  have s4 : W3 m ρ c (Proc.devRef .tc main_v14) = Mid.keyIx (W2 m ρ c (Proc.devRef .tc main_arg0)) := Mid.after_ops1_v14 (W2 m ρ c)
  rw [idx_kept m ρ c] at s4
  rw [s4, keys_eq m ρ c] at s3
  exact s1.trans (s2.trans s3)

/-- The affinity kernel's second operand: the query rows of every edge. -/
theorem queryRows_eq (c : Dev nD) :
    V6 m ρ c main_v17
      = Mid.takeRows (table (m ((c.tc : Thread nD τ).loc main_arg2)) (m ((c.tc : Thread nD τ).loc main_arg5)) (m ((c.tc : Thread nD τ).loc main_arg6))) (Mid.queryIx (m ((c.tc : Thread nD τ).loc main_arg0))) := by
  have s3 : W6 m ρ c (Proc.devRef .tc main_v17) = Mid.takeRows (W5 m ρ c (Proc.devRef .tc main_v7)) (W5 m ρ c (Proc.devRef .tc main_v16)) :=
    Mid.after_call1 (W5 m ρ c)
  have t1 : W5 m ρ c (Proc.devRef .tc main_v7) = W4 m ρ c (Proc.devRef .tc main_v7) := Mid.after_ops12_v7 (W4 m ρ c)
  have t2 : W4 m ρ c (Proc.devRef .tc main_v7) = W3 m ρ c (Proc.devRef .tc main_v7) := Mid.after_call0_v7 (W3 m ρ c)
  have u1 : W5 m ρ c (Proc.devRef .tc main_v16)
      = broadcastInDim S4x1048576x1 ![0, 1] bcast_S4x1048576_S4x1048576x1_0_1 (W4 m ρ c (Proc.devRef .tc main_v13) : (⟨S4x1048576, .i32⟩ : BufTy).Contents (Elt Ideal)) :=
    Mid.after_ops12_v16 (W4 m ρ c)
  have u2 : W4 m ρ c (Proc.devRef .tc main_v13) = W3 m ρ c (Proc.devRef .tc main_v13) := Mid.after_call0_v13 (W3 m ρ c)
  have u3 : W3 m ρ c (Proc.devRef .tc main_v13) = Mid.queryPlane (W2 m ρ c (Proc.devRef .tc main_arg0)) := Mid.after_ops1_v13 (W2 m ρ c)
  rw [idx_kept m ρ c] at u3
  rw [u2, u3] at u1
  have u4 : W5 m ρ c (Proc.devRef .tc main_v16) = Mid.queryIx (m ((c.tc : Thread nD τ).loc main_arg0)) := u1
  rw [t1.trans (t2.trans (queries_eq m ρ c)), u4] at s3
  exact s3

/-- THE RESULT: the last boundary's contents at the result buffer are `result` of the launch contents of the arguments. -/
theorem result_eq (c : Dev nD) :
    W8 m ρ c (Proc.devRef .tc main_v19)
      = result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have t1 := Mid.after_ops2_v19 (W7 m ρ c)
  have t2 : W7 m ρ c (Proc.devRef .tc main_v18) = (dat1 (V6 m ρ) c).arrAt 2 cfg1.N := W7_arr m ρ c 2
  have t3 := Aff.final (V6 m ρ) c
  rw [keyRows_eq m ρ c, queryRows_eq m ρ c] at t3
  rw [t3] at t2
  rw [t2] at t1
  exact t1

/-- The run, read: every weakly fair execution ends with the result buffer at `result` of the arguments and the
    arguments as launched. -/
theorem run : θ_run defs (onTc (τ := τ) (main (F := Ideal))) ⟨m, fun _ => 0, ρ⟩ (fun r => ∀ c : Dev nD,
      r.2.mem ((c.tc : Thread nD τ).loc main_v19)
        = result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩) (Whole.run_result m ρ)

end Cert.KernelIdeal.Res

end
-- ==== Proof.RefFold.lean ====
/-
  The reference function read as ONE function of its arguments. Its sixty-seven operations run in five stretches.
  The first (fifteen operations) forms the two tables, each a product of the 4 × 16384 × 128 input with a 32 × 128
  weight plus a bias row, and the two index arrays, rows 1 and 2 of the integer argument laid out as 4 × 1048576 × 1.
  The second (twenty-two operations) is a row gather from the first table at the first index array: an index below
  zero counts from the end (16384 is added), a row is the table's row at that index when the index then lies in
  0 … 16383, and a row of not-a-number fill otherwise. The third (one operation) lays out the second index array, the
  fourth (twenty-two operations) is the same row gather from the second table at it, and the fifth (seven operations)
  multiplies the two gathered arrays, sums the products over the last axis, lays the sums out as 4 × 16384 × 64 and
  scales them by a constant. Each stretch is a fold over its operations from ANY earlier contents; at the buffers
  read later the fold is a fixed function of what a few buffers held before, and leaves the other buffers alone.
  Chaining the five gives the last buffer as the staged value of the six arguments the function reads.
-/
import proofs.«169757_j55697135894755_2_alg».proof.Proof.RefReadP

set_option maxRecDepth 16384

noncomputable section

namespace Cert.ReferenceIdeal.Fold

open Cert.ReferenceIdeal Cert.ReferenceIdeal.Gen
open Idealize.ShloMosaic Idealize.ShloMosaic.TcCoe Idealize.SL.Sem Idealize.ShloMosaic.StableHlo

variable {F : FTy → Type} [FloatOps F]

/-- A typed reference's two transports undo each other. -/
theorem ofBuf_toBuf {T : BufTy} (x : TRef sig T) (v : T.Contents (Elt F)) : x.ofBuf (x.toBuf v) = v := by
  obtain ⟨r, h, h2, h3⟩ := x
  subst h
  rfl

/-- Folding over a concatenation is folding over the first list, then over the second. -/
theorem after_append (xs ys : List (HloOp τ sig (Elt F))) (V : Valuation τ sig (Elt F)) :
    after (xs ++ ys) V = after ys (after xs V) := by
  induction xs generalizing V with
  | nil => rfl
  | cons op xs ih => rw [List.cons_append, after_cons, after_cons, ih]

/-! ## The five stretches -/

/-- The tables and the index arrays: operations 1 – 15. -/
abbrev opsA : List (HloOp τ sig (Elt F)) :=
  [ binary main_arg2 main_arg3 main_v0 ((fun l r => Host.dotGeneral dot_S4x16384x128_S32x128_S4x16384x32_2_1_01_0_n_n none l r) : (⟨S4x16384x128, .f32⟩ : BufTy).Contents (Elt F) → (⟨S32x128, .f32⟩ : BufTy).Contents (Elt F) → (⟨S4x16384x32, .f32⟩ : BufTy).Contents (Elt F)),
    unary main_arg4 main_v1 (broadcastInDim S1x1x32 ![2] bcast_S32_S1x1x32_2 : (⟨S32, .f32⟩ : BufTy).Contents (Elt F) → (⟨S1x1x32, .f32⟩ : BufTy).Contents (Elt F)),
    unary main_v1 main_v2 (broadcastInDim S4x16384x32 ![0, 1, 2] bcast_S1x1x32_S4x16384x32_0_1_2 : (⟨S1x1x32, .f32⟩ : BufTy).Contents (Elt F) → (⟨S4x16384x32, .f32⟩ : BufTy).Contents (Elt F)),
    binary main_v0 main_v2 main_v3 (addf : (⟨S4x16384x32, .f32⟩ : BufTy).Contents (Elt F) → (⟨S4x16384x32, .f32⟩ : BufTy).Contents (Elt F) → (⟨S4x16384x32, .f32⟩ : BufTy).Contents (Elt F)),
    binary main_arg2 main_arg5 main_v4 ((fun l r => Host.dotGeneral dot_S4x16384x128_S32x128_S4x16384x32_2_1_01_0_n_n none l r) : (⟨S4x16384x128, .f32⟩ : BufTy).Contents (Elt F) → (⟨S32x128, .f32⟩ : BufTy).Contents (Elt F) → (⟨S4x16384x32, .f32⟩ : BufTy).Contents (Elt F)),
    unary main_arg6 main_v5 (broadcastInDim S1x1x32 ![2] bcast_S32_S1x1x32_2 : (⟨S32, .f32⟩ : BufTy).Contents (Elt F) → (⟨S1x1x32, .f32⟩ : BufTy).Contents (Elt F)),
    unary main_v5 main_v6 (broadcastInDim S4x16384x32 ![0, 1, 2] bcast_S1x1x32_S4x16384x32_0_1_2 : (⟨S1x1x32, .f32⟩ : BufTy).Contents (Elt F) → (⟨S4x16384x32, .f32⟩ : BufTy).Contents (Elt F)),
    binary main_v4 main_v6 main_v7 (addf : (⟨S4x16384x32, .f32⟩ : BufTy).Contents (Elt F) → (⟨S4x16384x32, .f32⟩ : BufTy).Contents (Elt F) → (⟨S4x16384x32, .f32⟩ : BufTy).Contents (Elt F)),
    unary main_arg0 main_v8 ((extractStridedSlice S1x4x16384x64 ![1, 0, 0, 0] · slices_S3x4x16384x64_S1x4x16384x64_1_0_0_0) : (⟨S3x4x16384x64, .i32⟩ : BufTy).Contents (Elt F) → (⟨S1x4x16384x64, .i32⟩ : BufTy).Contents (Elt F)),
    reshape main_v8 main_v9 rfl shapeCasts_S1x4x16384x64_S4x16384x64,
    reshape main_v9 main_v10 rfl shapeCasts_S4x16384x64_S4x1048576,
    unary main_arg0 main_v11 ((extractStridedSlice S1x4x16384x64 ![2, 0, 0, 0] · slices_S3x4x16384x64_S1x4x16384x64_2_0_0_0) : (⟨S3x4x16384x64, .i32⟩ : BufTy).Contents (Elt F) → (⟨S1x4x16384x64, .i32⟩ : BufTy).Contents (Elt F)),
    reshape main_v11 main_v12 rfl shapeCasts_S1x4x16384x64_S4x16384x64,
    reshape main_v12 main_v13 rfl shapeCasts_S4x16384x64_S4x1048576,
    unary main_v10 main_v14 (broadcastInDim S4x1048576x1 ![0, 1] bcast_S4x1048576_S4x1048576x1_0_1 : (⟨S4x1048576, .i32⟩ : BufTy).Contents (Elt F) → (⟨S4x1048576x1, .i32⟩ : BufTy).Contents (Elt F)) ]

/-- The first row gather: operations 16 – 37. -/
abbrev opsT0 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4x1048576x1, .i32⟩) main_call0_v0) (broadcastInDim S4x1048576x1 ![] bcast_S_S4x1048576x1),
    TRef.binary (TRef.of (T := ⟨S4x1048576x1, .i32⟩) main_v14) (TRef.of (T := ⟨S4x1048576x1, .i32⟩) main_call0_v0) (TRef.of (T := ⟨S4x1048576x1, .i1⟩) main_call0_v1) (cmpi .slt),
    TRef.nullary (TRef.of (T := ⟨S_, .i32⟩) main_call0_c_0) (constantI S_ 32 16384#32),
    TRef.unary (TRef.of (T := ⟨S_, .i32⟩) main_call0_c_0) (TRef.of (T := ⟨S4x1048576x1, .i32⟩) main_call0_v2) (broadcastInDim S4x1048576x1 ![] bcast_S_S4x1048576x1),
    TRef.binary (TRef.of (T := ⟨S4x1048576x1, .i32⟩) main_v14) (TRef.of (T := ⟨S4x1048576x1, .i32⟩) main_call0_v2) (TRef.of (T := ⟨S4x1048576x1, .i32⟩) main_call0_v3) addi,
    TRef.ternary (TRef.of (T := ⟨S4x1048576x1, .i1⟩) main_call0_v1) (TRef.of (T := ⟨S4x1048576x1, .i32⟩) main_call0_v3) (TRef.of (T := ⟨S4x1048576x1, .i32⟩) main_v14) (TRef.of (T := ⟨S4x1048576x1, .i32⟩) main_call0_v4) select,
    TRef.nullary (TRef.of (T := ⟨S1, .i32⟩) main_call0_c_1) (constantI S1 32 16383#32),
    TRef.nullary (TRef.of (T := ⟨S_, .i32⟩) main_call0_c_2) (constantI S_ 32 0#32),
    TRef.unary (TRef.of (T := ⟨S_, .i32⟩) main_call0_c_2) (TRef.of (T := ⟨S4x1048576x1, .i32⟩) main_call0_v5) (broadcastInDim S4x1048576x1 ![] bcast_S_S4x1048576x1),
    TRef.binary (TRef.of (T := ⟨S4x1048576x1, .i32⟩) main_call0_v4) (TRef.of (T := ⟨S4x1048576x1, .i32⟩) main_call0_v5) (TRef.of (T := ⟨S4x1048576x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4x1048576x1, .i32⟩) main_call0_v8) (broadcastInDim S4x1048576x1 ![0, 1, 2] bcast_S1x1x1_S4x1048576x1_0_1_2),
    TRef.binary (TRef.of (T := ⟨S4x1048576x1, .i32⟩) main_call0_v4) (TRef.of (T := ⟨S4x1048576x1, .i32⟩) main_call0_v8) (TRef.of (T := ⟨S4x1048576x1, .i1⟩) main_call0_v9) (cmpi .sle),
    TRef.binary (TRef.of (T := ⟨S4x1048576x1, .i1⟩) main_call0_v6) (TRef.of (T := ⟨S4x1048576x1, .i1⟩) main_call0_v9) (TRef.of (T := ⟨S4x1048576x1, .i1⟩) main_call0_v10) andi,
    TRef.nullary (TRef.of (T := ⟨S_, .i1⟩) main_call0_c_3) (constantI S_ 1 1#1),
    TRef.binary (TRef.of (T := ⟨S4x1048576x1, .i1⟩) main_call0_v10) (TRef.of (T := ⟨S_, .i1⟩) main_call0_c_3) (TRef.of (T := ⟨S4x1048576, .i1⟩) main_call0_v11) (fun x v => Host.reduce IntOp.andi x v reducesTo_S4x1048576x1_S4x1048576_d2 h_S_),
    TRef.binary (TRef.of (T := ⟨S4x16384x32, .f32⟩) main_v3) (TRef.of (T := ⟨S4x1048576x1, .i32⟩) main_call0_v4) (TRef.of (T := ⟨S4x1048576x32, .f32⟩) main_call0_v12) (fun x i => Host.gather gather_S4x16384x32_S4x1048576x1_S4x1048576x32_2_1_0_0_1_2_1132 x i),
    TRef.unary (TRef.of (T := ⟨S4x1048576, .i1⟩) main_call0_v11) (TRef.of (T := ⟨S4x1048576x32, .i1⟩) main_call0_v13) (broadcastInDim S4x1048576x32 ![0, 1] bcast_S4x1048576_S4x1048576x32_0_1),
    TRef.nullary (TRef.of (T := ⟨S_, .f32⟩) main_call0_cst) (constant S_ .f32 0x7FC00000#32),
    TRef.unary (TRef.of (T := ⟨S_, .f32⟩) main_call0_cst) (TRef.of (T := ⟨S4x1048576x32, .f32⟩) main_call0_v14) (broadcastInDim S4x1048576x32 ![] bcast_S_S4x1048576x32),
    TRef.ternary (TRef.of (T := ⟨S4x1048576x32, .i1⟩) main_call0_v13) (TRef.of (T := ⟨S4x1048576x32, .f32⟩) main_call0_v12) (TRef.of (T := ⟨S4x1048576x32, .f32⟩) main_call0_v14) (TRef.of (T := ⟨S4x1048576x32, .f32⟩) main_v15) select ]

/-- The second index array laid out: operation 38. -/
abbrev opsB : List (HloOp τ sig (Elt F)) :=
  [ unary main_v13 main_v16 (broadcastInDim S4x1048576x1 ![0, 1] bcast_S4x1048576_S4x1048576x1_0_1 : (⟨S4x1048576, .i32⟩ : BufTy).Contents (Elt F) → (⟨S4x1048576x1, .i32⟩ : BufTy).Contents (Elt F)) ]

/-- The second row gather: operations 39 – 60. -/
abbrev opsT1 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4x1048576x1, .i32⟩) main_call1_v0) (broadcastInDim S4x1048576x1 ![] bcast_S_S4x1048576x1),
    TRef.binary (TRef.of (T := ⟨S4x1048576x1, .i32⟩) main_v16) (TRef.of (T := ⟨S4x1048576x1, .i32⟩) main_call1_v0) (TRef.of (T := ⟨S4x1048576x1, .i1⟩) main_call1_v1) (cmpi .slt),
    TRef.nullary (TRef.of (T := ⟨S_, .i32⟩) main_call1_c_0) (constantI S_ 32 16384#32),
    TRef.unary (TRef.of (T := ⟨S_, .i32⟩) main_call1_c_0) (TRef.of (T := ⟨S4x1048576x1, .i32⟩) main_call1_v2) (broadcastInDim S4x1048576x1 ![] bcast_S_S4x1048576x1),
    TRef.binary (TRef.of (T := ⟨S4x1048576x1, .i32⟩) main_v16) (TRef.of (T := ⟨S4x1048576x1, .i32⟩) main_call1_v2) (TRef.of (T := ⟨S4x1048576x1, .i32⟩) main_call1_v3) addi,
    TRef.ternary (TRef.of (T := ⟨S4x1048576x1, .i1⟩) main_call1_v1) (TRef.of (T := ⟨S4x1048576x1, .i32⟩) main_call1_v3) (TRef.of (T := ⟨S4x1048576x1, .i32⟩) main_v16) (TRef.of (T := ⟨S4x1048576x1, .i32⟩) main_call1_v4) select,
    TRef.nullary (TRef.of (T := ⟨S1, .i32⟩) main_call1_c_1) (constantI S1 32 16383#32),
    TRef.nullary (TRef.of (T := ⟨S_, .i32⟩) main_call1_c_2) (constantI S_ 32 0#32),
    TRef.unary (TRef.of (T := ⟨S_, .i32⟩) main_call1_c_2) (TRef.of (T := ⟨S4x1048576x1, .i32⟩) main_call1_v5) (broadcastInDim S4x1048576x1 ![] bcast_S_S4x1048576x1),
    TRef.binary (TRef.of (T := ⟨S4x1048576x1, .i32⟩) main_call1_v4) (TRef.of (T := ⟨S4x1048576x1, .i32⟩) main_call1_v5) (TRef.of (T := ⟨S4x1048576x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S4x1048576x1, .i32⟩) main_call1_v8) (broadcastInDim S4x1048576x1 ![0, 1, 2] bcast_S1x1x1_S4x1048576x1_0_1_2),
    TRef.binary (TRef.of (T := ⟨S4x1048576x1, .i32⟩) main_call1_v4) (TRef.of (T := ⟨S4x1048576x1, .i32⟩) main_call1_v8) (TRef.of (T := ⟨S4x1048576x1, .i1⟩) main_call1_v9) (cmpi .sle),
    TRef.binary (TRef.of (T := ⟨S4x1048576x1, .i1⟩) main_call1_v6) (TRef.of (T := ⟨S4x1048576x1, .i1⟩) main_call1_v9) (TRef.of (T := ⟨S4x1048576x1, .i1⟩) main_call1_v10) andi,
    TRef.nullary (TRef.of (T := ⟨S_, .i1⟩) main_call1_c_3) (constantI S_ 1 1#1),
    TRef.binary (TRef.of (T := ⟨S4x1048576x1, .i1⟩) main_call1_v10) (TRef.of (T := ⟨S_, .i1⟩) main_call1_c_3) (TRef.of (T := ⟨S4x1048576, .i1⟩) main_call1_v11) (fun x v => Host.reduce IntOp.andi x v reducesTo_S4x1048576x1_S4x1048576_d2 h_S_),
    TRef.binary (TRef.of (T := ⟨S4x16384x32, .f32⟩) main_v7) (TRef.of (T := ⟨S4x1048576x1, .i32⟩) main_call1_v4) (TRef.of (T := ⟨S4x1048576x32, .f32⟩) main_call1_v12) (fun x i => Host.gather gather_S4x16384x32_S4x1048576x1_S4x1048576x32_2_1_0_0_1_2_1132 x i),
    TRef.unary (TRef.of (T := ⟨S4x1048576, .i1⟩) main_call1_v11) (TRef.of (T := ⟨S4x1048576x32, .i1⟩) main_call1_v13) (broadcastInDim S4x1048576x32 ![0, 1] bcast_S4x1048576_S4x1048576x32_0_1),
    TRef.nullary (TRef.of (T := ⟨S_, .f32⟩) main_call1_cst) (constant S_ .f32 0x7FC00000#32),
    TRef.unary (TRef.of (T := ⟨S_, .f32⟩) main_call1_cst) (TRef.of (T := ⟨S4x1048576x32, .f32⟩) main_call1_v14) (broadcastInDim S4x1048576x32 ![] bcast_S_S4x1048576x32),
    TRef.ternary (TRef.of (T := ⟨S4x1048576x32, .i1⟩) main_call1_v13) (TRef.of (T := ⟨S4x1048576x32, .f32⟩) main_call1_v12) (TRef.of (T := ⟨S4x1048576x32, .f32⟩) main_call1_v14) (TRef.of (T := ⟨S4x1048576x32, .f32⟩) main_v17) select ]

/-- Product, sum over the last axis, layout and scale: operations 61 – 67. -/
abbrev opsC : List (HloOp τ sig (Elt F)) :=
  [ binary main_v15 main_v17 main_v18 (mulf : (⟨S4x1048576x32, .f32⟩ : BufTy).Contents (Elt F) → (⟨S4x1048576x32, .f32⟩ : BufTy).Contents (Elt F) → (⟨S4x1048576x32, .f32⟩ : BufTy).Contents (Elt F)),
    nullary main_cst (constant S_ .f32 0x00000000#32),
    binary main_v18 main_cst main_v19 ((fun x v => Host.reduceAdd x v reducesTo_S4x1048576x32_S4x1048576_d2 h_S_) : (⟨S4x1048576x32, .f32⟩ : BufTy).Contents (Elt F) → (⟨S_, .f32⟩ : BufTy).Contents (Elt F) → (⟨S4x1048576, .f32⟩ : BufTy).Contents (Elt F)),
    reshape main_v19 main_v20 rfl shapeCasts_S4x1048576_S4x16384x64,
    nullary main_cst_0 (constant S_ .f32 0x3E3504F3#32),
    unary main_cst_0 main_v21 (broadcastInDim S4x16384x64 ![] bcast_S_S4x16384x64 : (⟨S_, .f32⟩ : BufTy).Contents (Elt F) → (⟨S4x16384x64, .f32⟩ : BufTy).Contents (Elt F)),
    binary main_v20 main_v21 main_v22 (mulf : (⟨S4x16384x64, .f32⟩ : BufTy).Contents (Elt F) → (⟨S4x16384x64, .f32⟩ : BufTy).Contents (Elt F) → (⟨S4x16384x64, .f32⟩ : BufTy).Contents (Elt F)) ]

set_option maxHeartbeats 4000000 in
/-- The reference's operations are the five stretches in order. -/
theorem ops_split : ValueP.ops (F := F) = opsA ++ opsT0 ++ opsB ++ opsT1 ++ opsC := rfl

/-! ## What each stretch leaves at the buffers read later -/

/-- An index below zero counts from the end of the 16384 rows. -/
def wrapIx (ix : (⟨S4x1048576x1, .i32⟩ : BufTy).Contents (Elt F)) : (⟨S4x1048576x1, .i32⟩ : BufTy).Contents (Elt F) :=
  select (cmpi .slt ix (broadcastInDim S4x1048576x1 ![] bcast_S_S4x1048576x1 (constantI S_ 32 0#32)))
    (addi ix (broadcastInDim S4x1048576x1 ![] bcast_S_S4x1048576x1 (constantI S_ 32 16384#32))) ix

/-- The rows of `tbl` at the wrapped indices, a fill row where the wrapped index is out of range. -/
def takeRows (tbl : (⟨S4x16384x32, .f32⟩ : BufTy).Contents (Elt F)) (ix : (⟨S4x1048576x1, .i32⟩ : BufTy).Contents (Elt F)) :
    (⟨S4x1048576x32, .f32⟩ : BufTy).Contents (Elt F) :=
  select
    (broadcastInDim S4x1048576x32 ![0, 1] bcast_S4x1048576_S4x1048576x32_0_1
      (Host.reduce IntOp.andi
        (andi (cmpi .sge (wrapIx ix) (broadcastInDim S4x1048576x1 ![] bcast_S_S4x1048576x1 (constantI S_ 32 0#32)))
          (cmpi .sle (wrapIx ix) (broadcastInDim S4x1048576x1 ![0, 1, 2] bcast_S1x1x1_S4x1048576x1_0_1_2
            (broadcastInDim S1x1x1 ![2] bcast_S1_S1x1x1_2 (constantI S1 32 16383#32)))))
        (constantI S_ 1 1#1) reducesTo_S4x1048576x1_S4x1048576_d2 h_S_))
    (Host.gather gather_S4x16384x32_S4x1048576x1_S4x1048576x32_2_1_0_0_1_2_1132 tbl (wrapIx ix))
    (broadcastInDim S4x1048576x32 ![] bcast_S_S4x1048576x32 (constant S_ .f32 0x7FC00000#32))

/-- The product of two gathered arrays summed over the last axis, laid out as 4 × 16384 × 64 and scaled. -/
def finish (a b : (⟨S4x1048576x32, .f32⟩ : BufTy).Contents (Elt F)) : (⟨S4x16384x64, .f32⟩ : BufTy).Contents (Elt F) :=
  mulf
    (shapeCast _ (Host.reduceAdd (mulf a b) (constant S_ .f32 0x00000000#32) reducesTo_S4x1048576x32_S4x1048576_d2 h_S_)
      shapeCasts_S4x1048576_S4x16384x64)
    (broadcastInDim S4x16384x64 ![] bcast_S_S4x16384x64 (constant S_ .f32 0x3E3504F3#32))

/-! ### The first stretch -/

/-- The first table after the first stretch. -/
theorem afterA_v3 (W : Valuation τ sig (Elt F)) :
    after opsA W (Proc.devRef .tc main_v3)
      = ReadP.val_main_v3 (F := F) (W (Proc.devRef .tc main_arg2)) (W (Proc.devRef .tc main_arg3)) (W (Proc.devRef .tc main_arg4)) := by
  after_results_simp
  rfl

/-- The second table after the first stretch. -/
theorem afterA_v7 (W : Valuation τ sig (Elt F)) :
    after opsA W (Proc.devRef .tc main_v7)
      = ReadP.val_main_v7 (F := F) (W (Proc.devRef .tc main_arg2)) (W (Proc.devRef .tc main_arg5)) (W (Proc.devRef .tc main_arg6)) := by
  after_results_simp
  rfl

/-- Row 2 of the integer argument, flattened, after the first stretch. -/
theorem afterA_v13 (W : Valuation τ sig (Elt F)) :
    after opsA W (Proc.devRef .tc main_v13) = ReadP.val_main_v13 (F := F) (W (Proc.devRef .tc main_arg0)) := by
  after_results_simp
  rfl

/-- The first index array after the first stretch. -/
theorem afterA_v14 (W : Valuation τ sig (Elt F)) :
    after opsA W (Proc.devRef .tc main_v14) = ReadP.val_main_v14 (F := F) (W (Proc.devRef .tc main_arg0)) := by
  after_results_simp
  rfl

/-! ### The first row gather -/

attribute [local irreducible] Host.reduce Host.gather in
/-- The first row gather at its result buffer. -/
theorem afterT0_v15 (W : Valuation τ sig (Elt F)) :
    after opsT0 W (Proc.devRef .tc main_v15) = takeRows (W (Proc.devRef .tc main_v3)) (W (Proc.devRef .tc main_v14)) := by
  after_results_simp
  simp only [ofBuf_toBuf]
  generalize W (Proc.devRef .tc main_v3) = tbl
  generalize W (Proc.devRef .tc main_v14) = ix
  rfl

/-- The first row gather leaves the second table alone. -/
theorem afterT0_v7 (W : Valuation τ sig (Elt F)) : after opsT0 W (Proc.devRef .tc main_v7) = W (Proc.devRef .tc main_v7) := by
  after_results_simp

/-- The first row gather leaves row 2 of the integer argument alone. -/
theorem afterT0_v13 (W : Valuation τ sig (Elt F)) : after opsT0 W (Proc.devRef .tc main_v13) = W (Proc.devRef .tc main_v13) := by
  after_results_simp

/-! ### The second index array -/

/-- The second index array after the third stretch. -/
theorem afterB_v16 (W : Valuation τ sig (Elt F)) :
    after opsB W (Proc.devRef .tc main_v16)
      = broadcastInDim S4x1048576x1 ![0, 1] bcast_S4x1048576_S4x1048576x1_0_1 (W (Proc.devRef .tc main_v13)) := by
  after_results_simp

/-- The third stretch leaves the first gathered array alone. -/
theorem afterB_v15 (W : Valuation τ sig (Elt F)) : after opsB W (Proc.devRef .tc main_v15) = W (Proc.devRef .tc main_v15) := by
  after_results_simp

/-- The third stretch leaves the second table alone. -/
theorem afterB_v7 (W : Valuation τ sig (Elt F)) : after opsB W (Proc.devRef .tc main_v7) = W (Proc.devRef .tc main_v7) := by
  after_results_simp

/-! ### The second row gather -/

attribute [local irreducible] Host.reduce Host.gather in
/-- The second row gather at its result buffer. -/
theorem afterT1_v17 (W : Valuation τ sig (Elt F)) :
    after opsT1 W (Proc.devRef .tc main_v17) = takeRows (W (Proc.devRef .tc main_v7)) (W (Proc.devRef .tc main_v16)) := by
  after_results_simp
  simp only [ofBuf_toBuf]
  generalize W (Proc.devRef .tc main_v7) = tbl
  generalize W (Proc.devRef .tc main_v16) = ix
  rfl

/-- The second row gather leaves the first gathered array alone. -/
theorem afterT1_v15 (W : Valuation τ sig (Elt F)) : after opsT1 W (Proc.devRef .tc main_v15) = W (Proc.devRef .tc main_v15) := by
  after_results_simp

/-! ### The last stretch -/

attribute [local irreducible] Host.reduceAdd in
/-- The result buffer after the last stretch. -/
theorem afterC_v22 (W : Valuation τ sig (Elt F)) :
    after opsC W (Proc.devRef .tc main_v22) = finish (W (Proc.devRef .tc main_v15)) (W (Proc.devRef .tc main_v17)) := by
  after_results_simp
  generalize W (Proc.devRef .tc main_v15) = a
  generalize W (Proc.devRef .tc main_v17) = b
  rfl

/-! ## The staged values in these terms -/

attribute [local irreducible] Host.reduce Host.gather in
/-- The staged first gathered array is the row gather of the staged first table at the staged first index array. -/
theorem v15_eq (x0 : (⟨S3x4x16384x64, .i32⟩ : BufTy).Contents (Elt F)) (x2 : (⟨S4x16384x128, .f32⟩ : BufTy).Contents (Elt F)) (x3 : (⟨S32x128, .f32⟩ : BufTy).Contents (Elt F)) (x4 : (⟨S32, .f32⟩ : BufTy).Contents (Elt F)) :
    ReadP.val_main_v15 (F := F) x0 x2 x3 x4
      = takeRows (ReadP.val_main_v3 (F := F) x2 x3 x4) (ReadP.val_main_v14 (F := F) x0) := by
  unfold ReadP.val_main_v15 ReadP.val_main_call0_v14 ReadP.val_main_call0_cst ReadP.val_main_call0_v13 ReadP.val_main_call0_v12 ReadP.val_main_call0_v11 ReadP.val_main_call0_c_3 ReadP.val_main_call0_v10 ReadP.val_main_call0_v9 ReadP.val_main_call0_v8 ReadP.val_main_call0_v7 ReadP.val_main_call0_v6 ReadP.val_main_call0_v5 ReadP.val_main_call0_c_2 ReadP.val_main_call0_c_1 ReadP.val_main_call0_v4 ReadP.val_main_call0_v3 ReadP.val_main_call0_v2 ReadP.val_main_call0_c_0 ReadP.val_main_call0_v1 ReadP.val_main_call0_v0 ReadP.val_main_call0_c
  generalize ReadP.val_main_v3 (F := F) x2 x3 x4 = tbl
  generalize ReadP.val_main_v14 (F := F) x0 = ix
  rfl

attribute [local irreducible] Host.reduce Host.gather in
/-- The staged second gathered array is the row gather of the staged second table at the staged second index array. -/
theorem v17_eq (x0 : (⟨S3x4x16384x64, .i32⟩ : BufTy).Contents (Elt F)) (x2 : (⟨S4x16384x128, .f32⟩ : BufTy).Contents (Elt F)) (x5 : (⟨S32x128, .f32⟩ : BufTy).Contents (Elt F)) (x6 : (⟨S32, .f32⟩ : BufTy).Contents (Elt F)) :
    ReadP.val_main_v17 (F := F) x0 x2 x5 x6
      = takeRows (ReadP.val_main_v7 (F := F) x2 x5 x6) (ReadP.val_main_v16 (F := F) x0) := by
  unfold ReadP.val_main_v17 ReadP.val_main_call1_v14 ReadP.val_main_call1_cst ReadP.val_main_call1_v13 ReadP.val_main_call1_v12 ReadP.val_main_call1_v11 ReadP.val_main_call1_c_3 ReadP.val_main_call1_v10 ReadP.val_main_call1_v9 ReadP.val_main_call1_v8 ReadP.val_main_call1_v7 ReadP.val_main_call1_v6 ReadP.val_main_call1_v5 ReadP.val_main_call1_c_2 ReadP.val_main_call1_c_1 ReadP.val_main_call1_v4 ReadP.val_main_call1_v3 ReadP.val_main_call1_v2 ReadP.val_main_call1_c_0 ReadP.val_main_call1_v1 ReadP.val_main_call1_v0 ReadP.val_main_call1_c
  generalize ReadP.val_main_v7 (F := F) x2 x5 x6 = tbl
  generalize ReadP.val_main_v16 (F := F) x0 = ix
  rfl

attribute [local irreducible] Host.reduceAdd in
/-- The staged result in terms of the two staged tables and the two flattened rows of the integer argument. -/
theorem v22_eq (x0 : (⟨S3x4x16384x64, .i32⟩ : BufTy).Contents (Elt F)) (x2 : (⟨S4x16384x128, .f32⟩ : BufTy).Contents (Elt F)) (x3 : (⟨S32x128, .f32⟩ : BufTy).Contents (Elt F)) (x4 : (⟨S32, .f32⟩ : BufTy).Contents (Elt F)) (x5 : (⟨S32x128, .f32⟩ : BufTy).Contents (Elt F)) (x6 : (⟨S32, .f32⟩ : BufTy).Contents (Elt F)) :
    ReadP.val_main_v22 (F := F) x0 x2 x3 x4 x5 x6
      = finish (takeRows (ReadP.val_main_v3 (F := F) x2 x3 x4) (ReadP.val_main_v14 (F := F) x0))
          (takeRows (ReadP.val_main_v7 (F := F) x2 x5 x6)
            (broadcastInDim S4x1048576x1 ![0, 1] bcast_S4x1048576_S4x1048576x1_0_1 (ReadP.val_main_v13 (F := F) x0))) := by
  unfold ReadP.val_main_v22 ReadP.val_main_v21 ReadP.val_main_cst_0 ReadP.val_main_v20 ReadP.val_main_v19 ReadP.val_main_cst ReadP.val_main_v18
  rw [v15_eq, v17_eq]
  unfold ReadP.val_main_v16
  generalize takeRows (ReadP.val_main_v3 (F := F) x2 x3 x4) (ReadP.val_main_v14 (F := F) x0) = a
  generalize takeRows (ReadP.val_main_v7 (F := F) x2 x5 x6) _ = b
  rfl

/-! ## The whole fold -/

/-- The fold over all the operations is the fold over the five stretches in turn. -/
theorem after_ops (V : Valuation τ sig (Elt F)) :
    after (ValueP.ops (F := F)) V = after opsC (after opsT1 (after opsB (after opsT0 (after opsA V)))) := by
  rw [ops_split, after_append, after_append, after_append, after_append]

/-- The last buffer after all the operations, from the launch contents: the staged value of the six arguments read. -/
theorem result_eq (m : (ℓ : Loc nD τ sig) → Buf (Elt F) ℓ) (c : Dev nD) :
    after (ValueP.ops (F := F)) (launchContents m c) (Proc.devRef .tc main_v22)
      = ReadP.val_main_v22 (F := F) (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  rw [after_ops, afterC_v22, afterT1_v17, afterT1_v15, afterB_v15, afterB_v7, afterB_v16, afterT0_v15, afterT0_v7, afterT0_v13,
    afterA_v3, afterA_v7, afterA_v13, afterA_v14, v22_eq]

/-! ## The arguments -/

/-- No operation writes argument 0's buffer. -/
theorem keep_arg0 (V : Valuation τ sig (Elt F)) :
    after (ValueP.ops (F := F)) V (Proc.devRef .tc main_arg0) = V (Proc.devRef .tc main_arg0) := by
  rw [after_ops]
  after_results_simp

/-- No operation writes argument 1's buffer. -/
theorem keep_arg1 (V : Valuation τ sig (Elt F)) :
    after (ValueP.ops (F := F)) V (Proc.devRef .tc main_arg1) = V (Proc.devRef .tc main_arg1) := by
  rw [after_ops]
  after_results_simp

/-- No operation writes argument 2's buffer. -/
theorem keep_arg2 (V : Valuation τ sig (Elt F)) :
    after (ValueP.ops (F := F)) V (Proc.devRef .tc main_arg2) = V (Proc.devRef .tc main_arg2) := by
  rw [after_ops]
  after_results_simp

/-- No operation writes argument 3's buffer. -/
theorem keep_arg3 (V : Valuation τ sig (Elt F)) :
    after (ValueP.ops (F := F)) V (Proc.devRef .tc main_arg3) = V (Proc.devRef .tc main_arg3) := by
  rw [after_ops]
  after_results_simp

/-- No operation writes argument 4's buffer. -/
theorem keep_arg4 (V : Valuation τ sig (Elt F)) :
    after (ValueP.ops (F := F)) V (Proc.devRef .tc main_arg4) = V (Proc.devRef .tc main_arg4) := by
  rw [after_ops]
  after_results_simp

/-- No operation writes argument 5's buffer. -/
theorem keep_arg5 (V : Valuation τ sig (Elt F)) :
    after (ValueP.ops (F := F)) V (Proc.devRef .tc main_arg5) = V (Proc.devRef .tc main_arg5) := by
  rw [after_ops]
  after_results_simp

/-- No operation writes argument 6's buffer. -/
theorem keep_arg6 (V : Valuation τ sig (Elt F)) :
    after (ValueP.ops (F := F)) V (Proc.devRef .tc main_arg6) = V (Proc.devRef .tc main_arg6) := by
  rw [after_ops]
  after_results_simp

/-! ## The run -/

/-- On every device, for any float values, from any memory with zero counters: every weakly fair execution of the
    reference function terminates with its result at the staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = ReadP.val_main_v22 (F := F) (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v22).trans (result_eq m c),
      (h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _),
      (h c main_arg6).trans (keep_arg6 _)⟩)
    (ValueP.run_fold m ρ)

end Cert.ReferenceIdeal.Fold

end
-- ==== Proof.Bridge.lean ====
/-
  The two idealized programs compute one function of the argument arrays.
  (1) The tables. Entry (b, n, d) of the kernel's key table is entry (16384·b + n, d) of the projection kernel's
      result, Σ_k x[16384·b + n, k] · wᵀ[k, d] + bias[0, d] over the flattened features, the transposed weights and
      the bias row, which is Σ_k features[b, n, k] · w[d, k] + bias[d]: the reference's contraction plus its broadcast
      bias, term by term. The same for the query table.
  (2) The gathers. Both programs apply the same operations to a table and to the same index plane (wrap an index
      below zero, test the range, gather the row, fill where out of range); the tables being equal, so are the rows.
  (3) The affinities. Entry (b, n, s) of the kernel's result is entry (b, 64·n + s) of the affinity kernel's array,
      (Σ_k X[b, e, k] · Y[b, e, k]) · scale; the reference's is (0 + Σ_k X[b, e, k] · Y[b, e, k]) · scale with the
      same scale word, and 0 + t = t.
  No step uses that the inputs are finite: only that sums and products of extended reals may be regrouped, and 0 + t = t.
-/
import proofs.«169757_j55697135894755_2_alg».proof.Proof.KWhole
import proofs.«169757_j55697135894755_2_alg».proof.Proof.RefReadP
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem
open Cert.ReferenceIdeal Cert.ReferenceIdeal.ReadP

/-- Row 16384·b + n of a [65536, 32] array, for entry (b, n, d) of its regrouping by batch. -/
abbrev flatRow (i : S4x16384x32.Idx) : Cert.KernelIdeal.S65536x32.Idx := fun a => match a with
  | ⟨0, _⟩ => ⟨(i 0).val * 16384 + (i 1).val, by have h0 : (i 0).val < 4 := (i 0).isLt; have h1 : (i 1).val < 16384 := (i 1).isLt; show (i 0).val * 16384 + (i 1).val < 65536; omega⟩
  | ⟨1, _⟩ => ⟨(i 2).val, (i 2).isLt⟩

/-- (1) A table of the kernel is the reference's contraction plus bias. -/
theorem table_eq (x2 : (⟨S4x16384x128, .f32⟩ : BufTy).Contents (Elt Ideal)) (x3 : (⟨S32x128, .f32⟩ : BufTy).Contents (Elt Ideal))
    (x4 : (⟨S32, .f32⟩ : BufTy).Contents (Elt Ideal)) :
    Cert.KernelIdeal.Res.table x2 x3 x4 = val_main_v3 (F := Ideal) x2 x3 x4 := by
  funext i
  have h0 : (i 0).val < 4 := (i 0).isLt
  have h1 : (i 1).val < 16384 := (i 1).isLt
  have h2 : (i 2).val < 32 := (i 2).isLt
  unfold Cert.KernelIdeal.Res.table
  refine (shapeCast_apply _ _ i (flatRow i)
    (by rewrite [Shape.rowMajor_val_two, Shape.rowMajor_val_three]; rfl)).trans ?_
  unfold Cert.KernelIdeal.Proj.projRows
  rw [val_main_v3_apply, val_main_v0_apply, val_main_v2_apply, val_main_v1_apply]
  refine congrArg₂ (· + ·) (Finset.sum_congr rfl fun k _ => congrArg₂ (· * ·) ?_ ?_) ?_
  · exact shapeCast_apply x2 _ _ (lidx_main_v0 i k)
      (by rewrite [Shape.rowMajor_val_two, Shape.rowMajor_val_three]; rfl)
  · exact transpose_apply [1, 0] x3 _ _ (ridx_main_v0 i k)
      (fun b => match b with | ⟨0, _⟩ => rfl | ⟨1, _⟩ => rfl)
  · exact shapeCast_apply x4 _ _ (idx_main_v1 (idx_main_v2 i))
      (by rewrite [Shape.rowMajor_val_one, Shape.rowMajor_val_two]; show (i 2).val = 0 * 32 + (i 2).val; omega)

/-- (1) The same for the query table. -/
theorem table_eq' (x2 : (⟨S4x16384x128, .f32⟩ : BufTy).Contents (Elt Ideal)) (x5 : (⟨S32x128, .f32⟩ : BufTy).Contents (Elt Ideal))
    (x6 : (⟨S32, .f32⟩ : BufTy).Contents (Elt Ideal)) :
    Cert.KernelIdeal.Res.table x2 x5 x6 = val_main_v7 (F := Ideal) x2 x5 x6 := by
  funext i
  have h0 : (i 0).val < 4 := (i 0).isLt
  have h1 : (i 1).val < 16384 := (i 1).isLt
  have h2 : (i 2).val < 32 := (i 2).isLt
  unfold Cert.KernelIdeal.Res.table
  refine (shapeCast_apply _ _ i (flatRow i)
    (by rewrite [Shape.rowMajor_val_two, Shape.rowMajor_val_three]; rfl)).trans ?_
  unfold Cert.KernelIdeal.Proj.projRows
  rw [val_main_v7_apply, val_main_v4_apply, val_main_v6_apply, val_main_v5_apply]
  refine congrArg₂ (· + ·) (Finset.sum_congr rfl fun k _ => congrArg₂ (· * ·) ?_ ?_) ?_
  · exact shapeCast_apply x2 _ _ (lidx_main_v4 i k)
      (by rewrite [Shape.rowMajor_val_two, Shape.rowMajor_val_three]; rfl)
  · exact transpose_apply [1, 0] x5 _ _ (ridx_main_v4 i k)
      (fun b => match b with | ⟨0, _⟩ => rfl | ⟨1, _⟩ => rfl)
  · exact shapeCast_apply x6 _ _ (idx_main_v5 (idx_main_v6 i))
      (by rewrite [Shape.rowMajor_val_one, Shape.rowMajor_val_two]; show (i 2).val = 0 * 32 + (i 2).val; omega)

attribute [local irreducible] Host.reduce Host.gather in
/-- (2) The key rows: the kernel's gather of a table at the key indices is the reference's, operation for operation. -/
theorem keyRows_eq (x0 : (⟨S3x4x16384x64, .i32⟩ : BufTy).Contents (Elt Ideal)) (x2 : (⟨S4x16384x128, .f32⟩ : BufTy).Contents (Elt Ideal))
    (x3 : (⟨S32x128, .f32⟩ : BufTy).Contents (Elt Ideal)) (x4 : (⟨S32, .f32⟩ : BufTy).Contents (Elt Ideal)) :
    Cert.KernelIdeal.Mid.takeRows (Cert.KernelIdeal.Res.table x2 x3 x4) (Cert.KernelIdeal.Mid.keyIx x0)
      = val_main_v15 (F := Ideal) x0 x2 x3 x4 := by
  rw [table_eq]
  unfold val_main_v15 val_main_call0_v12
  generalize val_main_v3 (F := Ideal) x2 x3 x4 = ks
  rfl

attribute [local irreducible] Host.reduce Host.gather in
/-- (2) The query rows. -/
theorem queryRows_eq (x0 : (⟨S3x4x16384x64, .i32⟩ : BufTy).Contents (Elt Ideal)) (x2 : (⟨S4x16384x128, .f32⟩ : BufTy).Contents (Elt Ideal))
    (x5 : (⟨S32x128, .f32⟩ : BufTy).Contents (Elt Ideal)) (x6 : (⟨S32, .f32⟩ : BufTy).Contents (Elt Ideal)) :
    Cert.KernelIdeal.Mid.takeRows (Cert.KernelIdeal.Res.table x2 x5 x6) (Cert.KernelIdeal.Mid.queryIx x0)
      = val_main_v17 (F := Ideal) x0 x2 x5 x6 := by
  rw [table_eq']
  unfold val_main_v17 val_main_call1_v12
  generalize val_main_v7 (F := Ideal) x2 x5 x6 = qs
  rfl

/-- (3) THE RESULTS: the kernel's result of the arguments is the reference's last stage. -/
theorem result_eq (x0 : (⟨S3x4x16384x64, .i32⟩ : BufTy).Contents (Elt Ideal)) (x2 : (⟨S4x16384x128, .f32⟩ : BufTy).Contents (Elt Ideal))
    (x3 : (⟨S32x128, .f32⟩ : BufTy).Contents (Elt Ideal)) (x4 : (⟨S32, .f32⟩ : BufTy).Contents (Elt Ideal))
    (x5 : (⟨S32x128, .f32⟩ : BufTy).Contents (Elt Ideal)) (x6 : (⟨S32, .f32⟩ : BufTy).Contents (Elt Ideal)) :
    Cert.KernelIdeal.Res.result x0 x2 x3 x4 x5 x6 = val_main_v22 (F := Ideal) x0 x2 x3 x4 x5 x6 := by
  funext i
  have h0 : (i 0).val < 4 := (i 0).isLt
  have h1 : (i 1).val < 16384 := (i 1).isLt
  have h2 : (i 2).val < 64 := (i 2).isLt
  unfold Cert.KernelIdeal.Res.result
  rw [keyRows_eq, queryRows_eq]
  refine (shapeCast_apply _ _ i (idx_main_v20 i)
    (by rewrite [Shape.rowMajor_val_two, Shape.rowMajor_val_three]; show (((i 0).val * 16384 + (i 1).val) * 64 + (i 2).val) / 1048576 * 1048576 + (((i 0).val * 16384 + (i 1).val) * 64 + (i 2).val) % 1048576 = ((i 0).val * 16384 + (i 1).val) * 64 + (i 2).val; omega)).trans ?_
  unfold Cert.KernelIdeal.Aff.scaledDots
  rw [val_main_v22_apply, val_main_v20_apply, val_main_v19_apply, val_main_v21_apply, val_main_cst_0_apply, val_main_cst_apply]
  show _ = (Ideal.ofBits .f32 0x00000000#32 + _) * _
  rw [Ideal.ofBits_zero_f32, zero_add]
  refine congrArg₂ (· * ·) (Finset.sum_congr rfl fun k _ => ?_) rfl
  rw [val_main_v18_apply]
  rfl

end Cert.Bridge

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.lean ====
/-
  The kernel computes, for every batch b, node n and neighbour slot s, the scaled dot product of a key row and a
  query row: with keys = features · Wkᵀ + bk and queries = features · Wqᵀ + bq (rows of 32 numbers per batch and
  node) and e = 64·n + s, the result at (b, n, s) is (Σ_d keys[b, x[b, e], d] · queries[b, y[b, e], d]) · scale, where
  x and y are planes 1 and 2 of the index argument (an index below zero counting from the end, a row of not-a-number
  fill where the index is out of range) and scale is one float constant, the same word in both programs. The kernel
  does it with a projection kernel over 8 blocks of 8192 rows (the inputs cast to a shorter float format, which is the
  identity on the extended reals), two row gathers on the host and an affinity kernel over 512 blocks of 2048 edges;
  the reference with two contractions, the same two gathers, a product, a sum over the last axis and the scaling.

  The five claims. The two kernel programs' frames are the generated ones. The reference's frame is its run with the
  result dropped. The idealization rewrote nothing, so `preserves` asks nothing. For `algebraic`: the idealized
  kernel's run ends with its result buffer at one function of the argument arrays (KWhole: the eight segments of
  @main read from the last to the first, over KProj and KAffinity for what each kernel leaves and KGather for the host
  lines between them); the reference's run ends with its result at its last stage of the argument arrays (RefFold: its
  sixty-seven operations read in five stretches); and the two functions are one (Bridge): the tables agree entry by
  entry after regrouping the rows by batch and transposing the weights, the gathers are the same operations, and
  0 + t = t closes the sums. Finiteness of the inputs is never used.
-/
import proofs.«169757_j55697135894755_2_alg».proof.Defs
import proofs.«169757_j55697135894755_2_alg».proof.Proof.Gen.Kernel
import proofs.«169757_j55697135894755_2_alg».proof.Proof.Gen.Kernel.Frame
import proofs.«169757_j55697135894755_2_alg».proof.Proof.Gen.KernelIdeal
import proofs.«169757_j55697135894755_2_alg».proof.Proof.Gen.KernelIdeal.Frame
import proofs.«169757_j55697135894755_2_alg».proof.Proof.Gen.ReferenceIdeal
import proofs.«169757_j55697135894755_2_alg».proof.Proof.Gen.Pre_finite_inputs
import proofs.«169757_j55697135894755_2_alg».proof.Proof.KWhole
import proofs.«169757_j55697135894755_2_alg».proof.Proof.RefFold
import proofs.«169757_j55697135894755_2_alg».proof.Proof.Bridge
import proofs.«169757_j55697135894755_2_alg».proof.Proof.LibFoldStretch
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Fold.run (F := Ideal) m ρ)

/-- The idealization rewrote no operation. -/
theorem preserves : Cert.preserves_Kernel_KernelIdeal := trivial

/-- From memories agreeing on the arguments both programs end, the kernel's result at its function of the arguments
    and the reference's at its last stage of the same arguments: one function. -/
theorem algebraic : Cert.algebraic_KernelIdeal_ReferenceIdeal := by
  intro m ρ m' ρ' _ hagree
  refine ⟨fun c => Cert.KernelIdeal.Res.result (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Res.run m ρ, ?_⟩
  refine (θ_run Cert.ReferenceIdeal.defs _ _).mono (fun _ h c => ⟨(h c).1.trans ?_, (h c).2⟩)
    (Cert.ReferenceIdeal.Fold.run (F := Ideal) m' ρ')
  obtain ⟨e0, e1, e2, e3, e4, e5, e6⟩ := hagree c
  rw [e0, e2, e3, e4, e5, e6]
  exact (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
